-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x5 .f32) (main_arg1 : IVec S2x3200000 32) (main_arg2 : FVec F S5x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S3300000x5 : Shape := ⟨2, ![3300000, 5]⟩
abbrev S1x64 : Shape := ⟨2, ![1, 64]⟩
abbrev S100000x64 : Shape := ⟨2, ![100000, 64]⟩
abbrev S5000x5 : Shape := ⟨2, ![5000, 5]⟩
abbrev S5000x64 : Shape := ⟨2, ![5000, 64]⟩
abbrev S5000x1 : Shape := ⟨2, ![5000, 1]⟩
abbrev S3300000x64 : Shape := ⟨2, ![3300000, 64]⟩
abbrev S1x1 : Shape := ⟨2, ![1, 1]⟩

abbrev nBuf : Space → Nat
  | .hbm => 82
  | .vmem => 21
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x5, .f32⟩
  | .hbm, ⟨31, _⟩ => ⟨S100000x5, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x5, .f32⟩
  | .hbm, ⟨41, _⟩ => ⟨S_, .f32⟩
  | .hbm, ⟨42, _⟩ => ⟨S100000x5, .f32⟩
  | .hbm, ⟨43, _⟩ => ⟨S3300000x1, .i32⟩
  | .hbm, ⟨44, _⟩ => ⟨S100000x5, .f32⟩
  | .hbm, ⟨45, _⟩ => ⟨S100000x5, .f32⟩
  | .hbm, ⟨46, _⟩ => ⟨S100000x5, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x1, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x1, .f32⟩
  | .hbm, ⟨74, _⟩ => ⟨S_, .f32⟩
  | .hbm, ⟨75, _⟩ => ⟨S100000x1, .f32⟩
  | .hbm, ⟨76, _⟩ => ⟨S3300000x1, .i32⟩
  | .hbm, ⟨77, _⟩ => ⟨S100000x1, .f32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000x1, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S64x1, .f32⟩
  | .local _ .vmem, ⟨19, _⟩ => ⟨S5000x1, .f32⟩
  | .local _ .vmem, ⟨20, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S_S100000x5 : S_.BroadcastsInDim S100000x5 (![] : Fin 0 → Fin S100000x5.rank)
  shapeCasts_S64_S1x64 : S64.ShapeCasts S1x64
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S5000x5_S5x64_S5000x64_1_0_0_1_n_n_wf : DotDims.WF S5000x5 S5x64 S5000x64 [1] [0] [0] [1] [] []
  dot_S5000x64_S64x64_S5000x64_1_0_0_1_n_n_wf : DotDims.WF S5000x64 S64x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x1_S5000x1_1_0_0_1_n_n_wf : DotDims.WF S5000x64 S64x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_v29) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x1, .f32⟩
  | .hbm, ⟨104, _⟩ => ⟨S3300000x1, .f32⟩
  | .hbm, ⟨105, _⟩ => ⟨S3300000x1, .f32⟩
  | .hbm, ⟨106, _⟩ => ⟨S_, .f32⟩
  | .hbm, ⟨107, _⟩ => ⟨S100000x1, .f32⟩
  | .hbm, ⟨108, _⟩ => ⟨S3300000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x64_S100000x64_1_0_0_1_n_n_wf : DotDims.WF S100000x5 S5x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its result NAMED. The program is three pipelined kernel regions among stretches of
  host operations; the buffer contents at each boundary between two segments are a fold from the launch memory, and the
  last of them is `Gen.W8`: what the last stretch of host operations leaves. Every weakly fair execution terminates,
  without a fault, with every unscoped buffer at that last boundary's contents; in particular the result array is
  `Gen.W8` read at the result's reference, and each argument array is what it was at the launch.
-/
import proofs.«116216_j23287312679270_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents read at the result's reference, and the eight argument arrays as launched. -/
theorem run : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.KernelArrays.lean ====
import proofs.«116216_j23287312679270_2_alg».proof.Proof.Gen.KernelIdeal.Frame
import Idealize.ShloMosaic.Lib.Pipeline.Value
import Idealize.ShloMosaic.Lib.ValueIdx
import Idealize.ShloMosaic.PureOps.Ideal.Laws

/-!
# From what each grid point writes back to the whole output array

Each of the three kernels runs over a grid of 20 points; point `t` reads row block `t` (5000 rows) of its row-block
operands and the whole of its small operands, and writes row block `t` of its output. Given what the body computes
at one entry of a block (`hbody`, a hypothesis here), the output array after the region is ONE function of the arrays
the region finds, index by index: the blocks tile the array, and an entry of block `t` is the entry of the array
at row `5000 t + p`.
-/

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The zero offsets of a rank-2 rectangle, however they are spelt. -/
theorem hz : (![0, 0] : Fin 2 → Nat) = fun _ => 0 := funext fun a => by fin_cases a <;> rfl

/-! ## First layer: a row block of `relu (a · w + b)` -/

/-- Row `i 0`, column `i 1` of `relu (a · w + b)`: the row of `a` against the column of `w`, plus the bias,
    clamped below at zero. -/
def rowsA (a : S100000x5.Idx → EReal) (w : S5x64.Idx → EReal) (b : S1x64.Idx → EReal) : S100000x64.Idx → EReal :=
  fun i => max ((∑ k : Fin 5, a (ix2 (i 0) k) * w (ix2 k (i 1))) + b (ix2 0 (i 1))) 0

/-- The block index maps over the grid: the row-block windows (input 0, the output) sit at block `(t, 0)`, the small
    arrays at block `(0, 0)`. -/
theorem idx_a : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block: when the block's operands are the arrays read at the matching rows and columns, the body's
    value at `y` is `rowsA` at `i`. -/
theorem point_a
    (hbody : ∀ (x0 : Vec Ideal S5000x5 .f32) (x1 : Vec Ideal S5x64 .f32) (x2 : Vec Ideal S1x64 .f32) (p : Fin 5000) (q : Fin 64),
      Gen.k0_pay1 (F := Ideal) x0 x1 x2 (ix2 p q) = max ((∑ k : Fin 5, x0 (ix2 p k) * x1 (ix2 k q)) + x2 (ix2 0 q)) 0)
    (x0 : Vec Ideal S5000x5 .f32) (x1 : Vec Ideal S5x64 .f32) (x2 : Vec Ideal S1x64 .f32)
    (a : S100000x5.Idx → EReal) (w : S5x64.Idx → EReal) (b : S1x64.Idx → EReal)
    (y : S5000x64.Idx) (i : S100000x64.Idx)
    (hx0 : ∀ k : Fin 5, x0 (ix2 (y 0) k) = a (ix2 (i 0) k))
    (hx1 : ∀ k : Fin 5, x1 (ix2 k (y 1)) = w (ix2 k (i 1)))
    (hx2 : x2 (ix2 0 (y 1)) = b (ix2 0 (i 1))) :
    Gen.k0_pay1 (F := Ideal) x0 x1 x2 y = rowsA a w b i := by
  rw [eq_ix2 y]
  refine (hbody x0 x1 x2 (y 0) (y 1)).trans ?_
  show max ((∑ k : Fin 5, x0 (ix2 (y 0) k) * x1 (ix2 k (y 1))) + x2 (ix2 0 (y 1))) 0 = max ((∑ k : Fin 5, a (ix2 (i 0) k) * w (ix2 k (i 1))) + b (ix2 0 (i 1))) 0
  rw [hx2, Finset.sum_congr rfl (fun k _ => by rw [hx0 k, hx1 k])]

/-- What grid point `t` writes back is block `t` of `rowsA` of the arrays as the region finds them. -/
theorem flushed_a
    (hbody : ∀ (x0 : Vec Ideal S5000x5 .f32) (x1 : Vec Ideal S5x64 .f32) (x2 : Vec Ideal S1x64 .f32) (p : Fin 5000) (q : Fin 64),
      Gen.k0_pay1 (F := Ideal) x0 x1 x2 (ix2 p q) = max ((∑ k : Fin 5, x0 (ix2 p k) * x1 (ix2 k q)) + x2 (ix2 0 q)) 0)
    (c : Dev nD) (t : Fin cfg0.N) :
    (dat0 V c).flushed 3 t = ((cfg0.win 3).blk t).view.read (Elt Ideal) (rowsA (V c main_v29) (V c main_arg2) (V c main_v30)) := by
  show (cfg0.win 3).cut (grid0.coords t) ((dat0 V c).after 3 t) = _
  rw [after0_3]
  unfold out0_3
  rw [View.canon_unit_zero hz]
  simp only [View.ld_unit_zero (S := S5000x5) hz, View.ld_unit_zero (S := S5x64) hz, View.ld_unit_zero (S := S1x64) hz]
  obtain ⟨e00, e01, e10, e11, e20, e21, e30, e31⟩ := idx_a t
  funext j
  show Gen.k0_pay1 (F := Ideal) (iblk0 V c 0 t) (iblk0 V c 1 t) (iblk0 V c 2 t) ((cfg0.win 3).xinj (grid0.coords t) j)
    = rowsA (V c main_v29) (V c main_arg2) (V c main_v30) (((cfg0.win 3).blk t).view.emb j)
  refine point_a hbody (iblk0 V c 0 t) (iblk0 V c 1 t) (iblk0 V c 2 t) (V c main_v29) (V c main_arg2) (V c main_v30)
    ((cfg0.win 3).xinj (grid0.coords t) j) (((cfg0.win 3).blk t).view.emb j) (fun k => ?_) (fun k => ?_) ?_
  · show (V c main_v29 : S100000x5.Idx → EReal) (((cfg0.win 0).blk t).view.emb (ix2 ((cfg0.win 3).xinj (grid0.coords t) j 0) k))
      = (V c main_v29 : S100000x5.Idx → EReal) (ix2 (((cfg0.win 3).blk t).view.emb j 0) k)
    refine congrArg (V c main_v29 : S100000x5.Idx → EReal) ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 5 + 1 * k.val = k.val; omega
  · show (V c main_arg2 : S5x64.Idx → EReal) (((cfg0.win 1).blk t).view.emb (ix2 k ((cfg0.win 3).xinj (grid0.coords t) j 1)))
      = (V c main_arg2 : S5x64.Idx → EReal) (ix2 k (((cfg0.win 3).blk t).view.emb j 1))
    refine congrArg (V c main_arg2 : S5x64.Idx → EReal) ?_
    funext a; apply Fin.ext
    match a with
    | ⟨0, _⟩ => show win0_1.index t (0 : Fin 2) * 5 + 1 * k.val = k.val; omega
    | ⟨1, _⟩ => show win0_1.index t (1 : Fin 2) * 64 + 1 * (j 1).val = win0_3.index t (1 : Fin 2) * 64 + 1 * (j 1).val; omega
  · show (V c main_v30 : S1x64.Idx → EReal) (((cfg0.win 2).blk t).view.emb (ix2 0 ((cfg0.win 3).xinj (grid0.coords t) j 1)))
      = (V c main_v30 : S1x64.Idx → EReal) (ix2 0 (((cfg0.win 3).blk t).view.emb j 1))
    refine congrArg (V c main_v30 : S1x64.Idx → EReal) ?_
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk_a (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v31).slice (win0_3.rect t)).set ↔ _
  rw [View.set_slice_whole, Rect.mem_set_unit]
  exact Iff.rfl

/-- The 20 row blocks tile the output array: row `r` lies in the block of point `r / 5000`. -/
theorem cover_a (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e30, e31⟩ := idx_a t
  refine ⟨t, flush0_3 t, ?_⟩
  rw [mem_blk_a]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE FIRST LAYER'S OUTPUT ARRAY after the region: `rowsA` of the three arrays the region finds, whole. -/
theorem array_a
    (hbody : ∀ (x0 : Vec Ideal S5000x5 .f32) (x1 : Vec Ideal S5x64 .f32) (x2 : Vec Ideal S1x64 .f32) (p : Fin 5000) (q : Fin 64),
      Gen.k0_pay1 (F := Ideal) x0 x1 x2 (ix2 p q) = max ((∑ k : Fin 5, x0 (ix2 p k) * x1 (ix2 k q)) + x2 (ix2 0 q)) 0)
    (V : (c : Dev nD) → (b : Ref sig .tc) → Buf (Elt Ideal) ((c : Thread nD τ).loc b)) (c : Dev nD) :
    (Gen.dat0 V c).arrAt 3 cfg0.N = rowsA (V c main_v29) (V c main_arg2) (V c main_v30) :=
  (dat0 V c).arrAt_eq_of_cover 3 (rowsA (V c main_v29) (V c main_arg2) (V c main_v30))
    (fun t _ => flushed_a V hbody c t) cover_a

/-! ## Second layer: a row block of `(h · w)` with each row scaled by `d` -/

/-- Row `i 0`, column `i 1` of `h · w`, times the row's factor `d`. -/
def rowsB (h : S100000x64.Idx → EReal) (w : S64x64.Idx → EReal) (d : S100000x1.Idx → EReal) : S100000x64.Idx → EReal :=
  fun i => (∑ k : Fin 64, h (ix2 (i 0) k) * w (ix2 k (i 1))) * d (ix2 (i 0) 0)

/-- The block index maps over the grid: the row-block windows (inputs 0 and 2, the output) sit at block `(t, 0)`, the
    square matrix at block `(0, 0)`. -/
theorem idx_b : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- One entry of a block: when the block's operands are the arrays read at the matching rows and columns, the body's
    value at `y` is `rowsB` at `i`. -/
theorem point_b
    (hbody : ∀ (x0 : Vec Ideal S5000x64 .f32) (x1 : Vec Ideal S64x64 .f32) (x2 : Vec Ideal S5000x1 .f32) (p : Fin 5000) (q : Fin 64),
      Gen.k1_pay1 (F := Ideal) x0 x1 x2 (ix2 p q) = (∑ k : Fin 64, x0 (ix2 p k) * x1 (ix2 k q)) * x2 (ix2 p 0))
    (x0 : Vec Ideal S5000x64 .f32) (x1 : Vec Ideal S64x64 .f32) (x2 : Vec Ideal S5000x1 .f32)
    (h : S100000x64.Idx → EReal) (w : S64x64.Idx → EReal) (d : S100000x1.Idx → EReal)
    (y : S5000x64.Idx) (i : S100000x64.Idx)
    (hx0 : ∀ k : Fin 64, x0 (ix2 (y 0) k) = h (ix2 (i 0) k))
    (hx1 : ∀ k : Fin 64, x1 (ix2 k (y 1)) = w (ix2 k (i 1)))
    (hx2 : x2 (ix2 (y 0) 0) = d (ix2 (i 0) 0)) :
    Gen.k1_pay1 (F := Ideal) x0 x1 x2 y = rowsB h w d i := by
  rw [eq_ix2 y]
  refine (hbody x0 x1 x2 (y 0) (y 1)).trans ?_
  show (∑ k : Fin 64, x0 (ix2 (y 0) k) * x1 (ix2 k (y 1))) * x2 (ix2 (y 0) 0) = (∑ k : Fin 64, h (ix2 (i 0) k) * w (ix2 k (i 1))) * d (ix2 (i 0) 0)
  rw [hx2, Finset.sum_congr rfl (fun k _ => by rw [hx0 k, hx1 k])]

/-- What grid point `t` writes back is block `t` of `rowsB` of the arrays as the region finds them. -/
theorem flushed_b
    (hbody : ∀ (x0 : Vec Ideal S5000x64 .f32) (x1 : Vec Ideal S64x64 .f32) (x2 : Vec Ideal S5000x1 .f32) (p : Fin 5000) (q : Fin 64),
      Gen.k1_pay1 (F := Ideal) x0 x1 x2 (ix2 p q) = (∑ k : Fin 64, x0 (ix2 p k) * x1 (ix2 k q)) * x2 (ix2 p 0))
    (c : Dev nD) (t : Fin cfg1.N) :
    (dat1 V c).flushed 3 t = ((cfg1.win 3).blk t).view.read (Elt Ideal) (rowsB (V c main_v31) (V c main_arg4) (V c main_v15)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S5000x1) hz]
  obtain ⟨e00, e01, e10, e11, e20, e21, e30, e31⟩ := idx_b t
  funext j
  show Gen.k1_pay1 (F := Ideal) (iblk1 V c 0 t) (iblk1 V c 1 t) (iblk1 V c 2 t) ((cfg1.win 3).xinj (grid1.coords t) j)
    = rowsB (V c main_v31) (V c main_arg4) (V c main_v15) (((cfg1.win 3).blk t).view.emb j)
  refine point_b hbody (iblk1 V c 0 t) (iblk1 V c 1 t) (iblk1 V c 2 t) (V c main_v31) (V c main_arg4) (V c main_v15)
    ((cfg1.win 3).xinj (grid1.coords t) j) (((cfg1.win 3).blk t).view.emb j) (fun k => ?_) (fun k => ?_) ?_
  · show (V c main_v31 : S100000x64.Idx → EReal) (((cfg1.win 0).blk t).view.emb (ix2 ((cfg1.win 3).xinj (grid1.coords t) j 0) k))
      = (V c main_v31 : S100000x64.Idx → EReal) (ix2 (((cfg1.win 3).blk t).view.emb j 0) k)
    refine congrArg (V c main_v31 : S100000x64.Idx → EReal) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show (V c main_arg4 : S64x64.Idx → EReal) (((cfg1.win 1).blk t).view.emb (ix2 k ((cfg1.win 3).xinj (grid1.coords t) j 1)))
      = (V c main_arg4 : S64x64.Idx → EReal) (ix2 k (((cfg1.win 3).blk t).view.emb j 1))
    refine congrArg (V c main_arg4 : S64x64.Idx → EReal) ?_
    funext a; apply Fin.ext
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  · show (V c main_v15 : S100000x1.Idx → EReal) (((cfg1.win 2).blk t).view.emb (ix2 ((cfg1.win 3).xinj (grid1.coords t) j 0) 0))
      = (V c main_v15 : S100000x1.Idx → EReal) (ix2 (((cfg1.win 3).blk t).view.emb j 0) 0)
    refine congrArg (V c main_v15 : S100000x1.Idx → EReal) ?_
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega

/-- An index of the output array is in point `t`'s block iff each coordinate is in the block's range on its axis. -/
theorem mem_blk_b (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v32).slice (win1_3.rect t)).set ↔ _
  rw [View.set_slice_whole, Rect.mem_set_unit]
  exact Iff.rfl

/-- The 20 row blocks tile the output array: row `r` lies in the block of point `r / 5000`. -/
theorem cover_b (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, e30, e31⟩ := idx_b t
  refine ⟨t, flush1_3 t, ?_⟩
  rw [mem_blk_b]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE SECOND LAYER'S OUTPUT ARRAY after the region: `rowsB` of the three arrays the region finds, whole. -/
theorem array_b
    (hbody : ∀ (x0 : Vec Ideal S5000x64 .f32) (x1 : Vec Ideal S64x64 .f32) (x2 : Vec Ideal S5000x1 .f32) (p : Fin 5000) (q : Fin 64),
      Gen.k1_pay1 (F := Ideal) x0 x1 x2 (ix2 p q) = (∑ k : Fin 64, x0 (ix2 p k) * x1 (ix2 k q)) * x2 (ix2 p 0))
    (V : (c : Dev nD) → (b : Ref sig .tc) → Buf (Elt Ideal) ((c : Thread nD τ).loc b)) (c : Dev nD) :
    (Gen.dat1 V c).arrAt 3 cfg1.N = rowsB (V c main_v31) (V c main_arg4) (V c main_v15) :=
  (dat1 V c).arrAt_eq_of_cover 3 (rowsB (V c main_v31) (V c main_arg4) (V c main_v15))
    (fun t _ => flushed_b V hbody c t) cover_b

/-! ## Third layer: a row block of `relu (d ⊙ g + b) · w`, each row scaled by `d` again -/

/-- Row `i 0` of `relu (d ⊙ g + b) · w` (a single column), times the row's factor `d`: the row of `g` is scaled by
    its factor, the bias added, clamped below at zero, then taken against the column `w`. -/
def rowsC (g : S100000x64.Idx → EReal) (d : S100000x1.Idx → EReal) (b : S1x64.Idx → EReal) (w : S64x1.Idx → EReal) : S100000x1.Idx → EReal :=
  fun i => (∑ k : Fin 64, max (g (ix2 (i 0) k) * d (ix2 (i 0) 0) + b (ix2 0 k)) 0 * w (ix2 k 0)) * d (ix2 (i 0) 0)

/-- The block index maps over the grid: the row-block windows (inputs 0 and 1, the output) sit at block `(t, 0)`, the
    bias row and the weight column at block `(0, 0)`. -/
theorem idx_c : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One entry of a block: when the block's operands are the arrays read at the matching rows, the body's value at
    `y` is `rowsC` at `i`. The row factor is loaded twice by the body; both loads are the same block. -/
theorem point_c
    (hbody : ∀ (x0 : Vec Ideal S5000x64 .f32) (x1 : Vec Ideal S5000x1 .f32) (x2 : Vec Ideal S1x64 .f32) (x3 : Vec Ideal S64x1 .f32) (x4 : Vec Ideal S5000x1 .f32) (p : Fin 5000),
      Gen.k2_pay1 (F := Ideal) x0 x1 x2 x3 x4 (ix2 p 0) = (∑ k : Fin 64, max (x0 (ix2 p k) * x1 (ix2 p 0) + x2 (ix2 0 k)) 0 * x3 (ix2 k 0)) * x4 (ix2 p 0))
    (x0 : Vec Ideal S5000x64 .f32) (x1 : Vec Ideal S5000x1 .f32) (x2 : Vec Ideal S1x64 .f32) (x3 : Vec Ideal S64x1 .f32)
    (g : S100000x64.Idx → EReal) (d : S100000x1.Idx → EReal) (b : S1x64.Idx → EReal) (w : S64x1.Idx → EReal)
    (y : S5000x1.Idx) (i : S100000x1.Idx)
    (hx0 : ∀ k : Fin 64, x0 (ix2 (y 0) k) = g (ix2 (i 0) k))
    (hx1 : x1 (ix2 (y 0) 0) = d (ix2 (i 0) 0))
    (hx2 : ∀ k : Fin 64, x2 (ix2 0 k) = b (ix2 0 k))
    (hx3 : ∀ k : Fin 64, x3 (ix2 k 0) = w (ix2 k 0)) :
    Gen.k2_pay1 (F := Ideal) x0 x1 x2 x3 x1 y = rowsC g d b w i := by
  have hy : y = ix2 (y 0) (0 : Fin 1) := by
    funext a
    match a with
    | ⟨0, _⟩ => rfl
    | ⟨1, h1⟩ => exact Fin.ext (show (y ⟨1, h1⟩).val = 0 from Nat.lt_one_iff.mp (y ⟨1, h1⟩).isLt)
  rw [hy]
  refine (hbody x0 x1 x2 x3 x1 (y 0)).trans ?_
  show (∑ k : Fin 64, max (x0 (ix2 (y 0) k) * x1 (ix2 (y 0) 0) + x2 (ix2 0 k)) 0 * x3 (ix2 k 0)) * x1 (ix2 (y 0) 0)
    = (∑ k : Fin 64, max (g (ix2 (i 0) k) * d (ix2 (i 0) 0) + b (ix2 0 k)) 0 * w (ix2 k 0)) * d (ix2 (i 0) 0)
  rw [hx1, Finset.sum_congr rfl (fun k _ => by rw [hx0 k, hx2 k, hx3 k])]

/-- What grid point `t` writes back is block `t` of `rowsC` of the arrays as the region finds them. -/
theorem flushed_c
    (hbody : ∀ (x0 : Vec Ideal S5000x64 .f32) (x1 : Vec Ideal S5000x1 .f32) (x2 : Vec Ideal S1x64 .f32) (x3 : Vec Ideal S64x1 .f32) (x4 : Vec Ideal S5000x1 .f32) (p : Fin 5000),
      Gen.k2_pay1 (F := Ideal) x0 x1 x2 x3 x4 (ix2 p 0) = (∑ k : Fin 64, max (x0 (ix2 p k) * x1 (ix2 p 0) + x2 (ix2 0 k)) 0 * x3 (ix2 k 0)) * x4 (ix2 p 0))
    (c : Dev nD) (t : Fin cfg2.N) :
    (dat2 V c).flushed 4 t = ((cfg2.win 4).blk t).view.read (Elt Ideal) (rowsC (V c main_v42) (V c main_v15) (V c main_v43) (V c main_arg6)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz, View.ld_unit_zero (S := S64x1) hz]
  obtain ⟨e00, e01, e10, e11, e20, e21, e30, e31, e40, e41⟩ := idx_c t
  funext j
  show Gen.k2_pay1 (F := Ideal) (iblk2 V c 0 t) (iblk2 V c 1 t) (iblk2 V c 2 t) (iblk2 V c 3 t) (iblk2 V c 1 t) ((cfg2.win 4).xinj (grid2.coords t) j)
    = rowsC (V c main_v42) (V c main_v15) (V c main_v43) (V c main_arg6) (((cfg2.win 4).blk t).view.emb j)
  refine point_c hbody (iblk2 V c 0 t) (iblk2 V c 1 t) (iblk2 V c 2 t) (iblk2 V c 3 t) (V c main_v42) (V c main_v15) (V c main_v43) (V c main_arg6)
    ((cfg2.win 4).xinj (grid2.coords t) j) (((cfg2.win 4).blk t).view.emb j) (fun k => ?_) ?_ (fun k => ?_) (fun k => ?_)
  · show (V c main_v42 : S100000x64.Idx → EReal) (((cfg2.win 0).blk t).view.emb (ix2 ((cfg2.win 4).xinj (grid2.coords t) j 0) k))
      = (V c main_v42 : S100000x64.Idx → EReal) (ix2 (((cfg2.win 4).blk t).view.emb j 0) k)
    refine congrArg (V c main_v42 : S100000x64.Idx → EReal) ?_
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * k.val = k.val; omega
  · show (V c main_v15 : S100000x1.Idx → EReal) (((cfg2.win 1).blk t).view.emb (ix2 ((cfg2.win 4).xinj (grid2.coords t) j 0) 0))
      = (V c main_v15 : S100000x1.Idx → EReal) (ix2 (((cfg2.win 4).blk t).view.emb j 0) 0)
    refine congrArg (V c main_v15 : S100000x1.Idx → EReal) ?_
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  · show (V c main_v43 : S1x64.Idx → EReal) (((cfg2.win 2).blk t).view.emb (ix2 0 k)) = (V c main_v43 : S1x64.Idx → EReal) (ix2 0 k)
    refine congrArg (V c main_v43 : S1x64.Idx → EReal) ?_
    funext a; apply Fin.ext
    match a with
    | ⟨0, _⟩ => show win2_2.index t (0 : Fin 2) * 1 + 1 * 0 = 0; omega
    | ⟨1, _⟩ => show win2_2.index t (1 : Fin 2) * 64 + 1 * k.val = k.val; omega
  · show (V c main_arg6 : S64x1.Idx → EReal) (((cfg2.win 3).blk t).view.emb (ix2 k 0)) = (V c main_arg6 : S64x1.Idx → EReal) (ix2 k 0)
    refine congrArg (V c main_arg6 : S64x1.Idx → EReal) ?_
    funext a; apply Fin.ext
    match a with
    | ⟨0, _⟩ => show win2_3.index t (0 : Fin 2) * 64 + 1 * k.val = k.val; omega
    | ⟨1, _⟩ => show win2_3.index t (1 : Fin 2) * 1 + 1 * 0 = 0; omega

/-- An index of the output array is in point `t`'s block iff each coordinate is in the block's range on its axis. -/
theorem mem_blk_c (t : Fin cfg2.N) (i : S100000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v44).slice (win2_4.rect t)).set ↔ _
  rw [View.set_slice_whole, Rect.mem_set_unit]
  exact Iff.rfl

/-- The 20 row blocks tile the output array: row `r` lies in the block of point `r / 5000`. -/
theorem cover_c (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, e40, e41⟩ := idx_c t
  refine ⟨t, flush2_4 t, ?_⟩
  rw [mem_blk_c]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 1 ≤ (i 1).val ∧ (i 1).val < win2_4.index t (1 : Fin 2) * 1 + 1; omega

/-- THE THIRD LAYER'S OUTPUT ARRAY after the region: `rowsC` of the four arrays the region finds, whole. -/
theorem array_c
    (hbody : ∀ (x0 : Vec Ideal S5000x64 .f32) (x1 : Vec Ideal S5000x1 .f32) (x2 : Vec Ideal S1x64 .f32) (x3 : Vec Ideal S64x1 .f32) (x4 : Vec Ideal S5000x1 .f32) (p : Fin 5000),
      Gen.k2_pay1 (F := Ideal) x0 x1 x2 x3 x4 (ix2 p 0) = (∑ k : Fin 64, max (x0 (ix2 p k) * x1 (ix2 p 0) + x2 (ix2 0 k)) 0 * x3 (ix2 k 0)) * x4 (ix2 p 0))
    (V : (c : Dev nD) → (b : Ref sig .tc) → Buf (Elt Ideal) ((c : Thread nD τ).loc b)) (c : Dev nD) :
    (Gen.dat2 V c).arrAt 4 cfg2.N = rowsC (V c main_v42) (V c main_v15) (V c main_v43) (V c main_arg6) :=
  (dat2 V c).arrAt_eq_of_cover 4 (rowsC (V c main_v42) (V c main_v15) (V c main_v43) (V c main_arg6))
    (fun t _ => flushed_c V hbody c t) cover_c

end Cert.KernelIdeal.Arrays

end
-- ==== Proof.KernelShapes.lean ====
/-
  The idealized kernel as ONE function of its argument arrays. The program is a three-layer graph convolution: from
  the edge array it builds a source list and a destination list (the edges followed by one self-loop per node) and a
  per-node normaliser; each layer gathers rows of a node table at the sources and adds them into the rows named by the
  destinations, and three pipelined regions do the dense work in between (a small matrix product with bias and
  rectifier; a matrix product scaled by the normaliser; the second layer's rectifier fused with the third layer's matrix
  product). The functions below are the shapes of the host stretches; `kernelOf` composes them with the regions'
  row functions.
-/
import proofs.«116216_j23287312679270_2_alg».proof.Proof.KernelArrays
import proofs.«116216_j23287312679270_2_alg».proof.Proof.RefReadPatched

set_option maxRecDepth 16384

noncomputable section

namespace Cert.KernelIdeal.Stages

open Cert.KernelIdeal Cert.KernelIdeal.Gen Cert.KernelIdeal.Arrays Cert.ReferenceIdeal.ReadP
open Idealize.ShloMosaic Idealize.ShloMosaic.TcCoe Idealize.SL.Sem

/-! ## The shapes of the host stretches, as functions -/

/-- An index list as a one-column matrix: the form a scatter's indices take. -/
def asCol (s : IVec S3300000 32) : IVec S3300000x1 32 :=
  broadcastInDim S3300000x1 ![0] bcast_S3300000_S3300000x1_0 s

/-- An index list with its negative entries wrapped by the number of nodes, as a one-column matrix: the form a gather's
    start indices take. -/
def wrapped (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- A per-node vector as a column: node `v`'s entry at `(v, 0)`. -/
def colOf (d : FVec Ideal S100000 .f32) : FVec Ideal S100000x1 .f32 :=
  broadcastInDim S100000x1 ![0] bcast_S100000_S100000x1_0 d

/-- A column spread over the five input channels: row `v`'s entry at every `(v, f)`. -/
def wideOf (dc : FVec Ideal S100000x1 .f32) : FVec Ideal S100000x5 .f32 :=
  broadcastInDim S100000x5 ![0, 1] bcast_S100000x1_S100000x5_0_1 dc

/-- The first region's input from the node features `a0`, the normaliser `d` and the two lists: the source-scaled
    rows gathered at the sources, summed at the destinations, scaled by the destination's normaliser. -/
def aggOf (a0 : FVec Ideal S100000x5 .f32) (d : FVec Ideal S100000 .f32) (src dst : IVec S3300000 32) : FVec Ideal S100000x5 .f32 :=
  mulf (F := Ideal) (Host.scatterAdd (F := Ideal) scatter_S100000x5_S3300000x1_S3300000x5_1_0_0_1
      (broadcastInDim S100000x5 ![] bcast_S_S100000x5 (constant (F := Ideal) S_ .f32 0x00000000#32))
      (asCol dst)
      (Host.gather gather_S100000x5_S3300000x1_S3300000x5_1_0_n_n_0_1_15 (mulf (F := Ideal) a0 (wideOf (colOf d))) (wrapped src)))
    (wideOf (colOf d))

/-- The wrapped source list as a column is the reference's gather index stage. -/
theorem wrapped_src (a1 : IVec S2x3200000 32) : wrapped (val_main_v3 (F := Ideal) a1) = val_main_v20 (F := Ideal) a1 := rfl

/-- The destination list as a column is the reference's scatter index stage. -/
theorem asCol_dst (a1 : IVec S2x3200000 32) : asCol (val_main_v6 (F := Ideal) a1) = val_main_v9 (F := Ideal) a1 := rfl

/-- The second region's output gathered at the sources and summed at the destinations: the third region's input. -/
def agg64Of (p : FVec Ideal S100000x64 .f32) (src dst : IVec S3300000 32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (asCol dst)
    (Host.gather gather_S100000x64_S3300000x1_S3300000x64_1_0_n_n_0_1_164 p (wrapped src))

/-- The result from the third region's output `p`, the normaliser column and the last bias: gathered at the sources,
    summed at the destinations, scaled by the destination's normaliser, plus the bias. -/
def outOf (p : FVec Ideal S100000x1 .f32) (dc : FVec Ideal S100000x1 .f32) (a7 : FVec Ideal S1 .f32) (src dst : IVec S3300000 32) :
    FVec Ideal S100000x1 .f32 :=
  addf (F := Ideal) (mulf (F := Ideal) (Host.scatterAdd (F := Ideal) scatter_S100000x1_S3300000x1_S3300000x1_1_0_0_1
        (broadcastInDim S100000x1 ![] bcast_S_S100000x1 (constant (F := Ideal) S_ .f32 0x00000000#32))
        (asCol dst)
        (Host.gather gather_S100000x1_S3300000x1_S3300000x1_1_0_n_n_0_1_11 p (wrapped src)))
      dc)
    (broadcastInDim S100000x1 ![0, 1] bcast_S1x1_S100000x1_0_1 (broadcastInDim S1x1 ![1] bcast_S1_S1x1_1 a7))

/-- A bias vector as a one-row matrix. -/
def rowOf (b : FVec Ideal S64 .f32) : FVec Ideal S1x64 .f32 := shapeCast S1x64 b shapeCasts_S64_S1x64

/-- The first layer's activations: the first region's row function of the aggregated input. -/
def hidden1 (a0 : FVec Ideal S100000x5 .f32) (a1 : IVec S2x3200000 32) (a2 : FVec Ideal S5x64 .f32) (a3 : FVec Ideal S64 .f32) :
    FVec Ideal S100000x64 .f32 :=
  rowsA (aggOf a0 (val_main_v14 (F := Ideal) a1) (val_main_v3 (F := Ideal) a1) (val_main_v6 (F := Ideal) a1)) a2 (rowOf a3)

/-- The second layer before aggregation: the second region's row function of the first layer's activations. -/
def pre2 (a0 : FVec Ideal S100000x5 .f32) (a1 : IVec S2x3200000 32) (a2 : FVec Ideal S5x64 .f32) (a3 : FVec Ideal S64 .f32)
    (a4 : FVec Ideal S64x64 .f32) : FVec Ideal S100000x64 .f32 :=
  rowsB (hidden1 a0 a1 a2 a3) a4 (colOf (val_main_v14 (F := Ideal) a1))

/-- The third layer before aggregation: the third region's row function of the aggregated second layer. -/
def pre3 (a0 : FVec Ideal S100000x5 .f32) (a1 : IVec S2x3200000 32) (a2 : FVec Ideal S5x64 .f32) (a3 : FVec Ideal S64 .f32)
    (a4 : FVec Ideal S64x64 .f32) (a5 : FVec Ideal S64 .f32) (a6 : FVec Ideal S64x1 .f32) : FVec Ideal S100000x1 .f32 :=
  rowsC (agg64Of (pre2 a0 a1 a2 a3 a4) (val_main_v3 (F := Ideal) a1) (val_main_v6 (F := Ideal) a1))
    (colOf (val_main_v14 (F := Ideal) a1)) (rowOf a5) a6

/-- THE KERNEL'S RESULT as one function of the eight argument arrays. -/
def kernelOf (a0 : FVec Ideal S100000x5 .f32) (a1 : IVec S2x3200000 32) (a2 : FVec Ideal S5x64 .f32) (a3 : FVec Ideal S64 .f32)
    (a4 : FVec Ideal S64x64 .f32) (a5 : FVec Ideal S64 .f32) (a6 : FVec Ideal S64x1 .f32) (a7 : FVec Ideal S1 .f32) :
    FVec Ideal S100000x1 .f32 :=
  outOf (pre3 a0 a1 a2 a3 a4 a5 a6) (colOf (val_main_v14 (F := Ideal) a1)) a7
    (val_main_v3 (F := Ideal) a1) (val_main_v6 (F := Ideal) a1)

end Cert.KernelIdeal.Stages

end
-- ==== Proof.KernelEntry.lean ====
/-
  What the idealized kernel's buffers hold when its first pipelined region is entered, as functions of the argument
  arrays. The program first builds, from the edge array, the source list and the destination list (the edges followed by
  one self-loop per node), the degree of every node (how many list entries name it as destination) and the normaliser
  `dis v = deg v ^ (-1/2)` (zero where the degree is not positive); these are, operation for operation, the host
  operations the reference program starts with, so they are stated through the reference's own stages. Then it scales
  every node's five input channels by the node's normaliser, gathers the scaled rows at the edges' sources, adds them
  into the rows named by the destinations, and scales each sum by the destination's normaliser: the array the first
  region reads. Each stretch of host operations is read over an arbitrary valuation of the buffers before it, and the
  three stretches before the first region are then chained.
-/
import proofs.«116216_j23287312679270_2_alg».proof.Proof.Gen.KernelIdeal.Frame
import proofs.«116216_j23287312679270_2_alg».proof.Proof.KernelShapes
import Idealize.ShloMosaic.Lib.StableHlo.Run

set_option maxRecDepth 16384

noncomputable section

namespace Cert.KernelIdeal.Stages

open Cert.KernelIdeal Cert.KernelIdeal.Gen Cert.ReferenceIdeal.ReadP
open Idealize.ShloMosaic Idealize.ShloMosaic.TcCoe Idealize.SL.Sem Idealize.ShloMosaic.StableHlo

/-! ## The three stretches before the first region, each over an arbitrary valuation -/

set_option maxHeartbeats 8000000 in
/-- The first stretch from the launch contents: the two lists, the comparison and the reciprocal square root of the
    degree, and the zero the `where` takes, are the reference's stages of the edge array. -/
theorem first_stretch (m : (ℓ : Loc nD τ sig) → Buf (Elt Ideal) ℓ) (ρ : Dev nD → PrngReg) (c : Dev nD) :
    W1 m ρ c (Proc.devRef .tc main_v3) = val_main_v3 (F := Ideal) (m ((c : Thread nD τ).loc main_arg1))
    ∧ W1 m ρ c (Proc.devRef .tc main_v6) = val_main_v6 (F := Ideal) (m ((c : Thread nD τ).loc main_arg1))
    ∧ W1 m ρ c (Proc.devRef .tc main_v12) = val_main_v12 (F := Ideal) (m ((c : Thread nD τ).loc main_arg1))
    ∧ W1 m ρ c (Proc.devRef .tc main_v13) = val_main_v13 (F := Ideal) (m ((c : Thread nD τ).loc main_arg1))
    ∧ W1 m ρ c (Proc.devRef .tc main_cst_2) = val_main_cst_2 (F := Ideal) := by
  refine ⟨?_, ?_, ?_, ?_, ?_⟩
  · show StableHlo.after hostOps0 (W0 m ρ c) (Proc.devRef .tc main_v3) = _
    after_results
    rfl
  · show StableHlo.after hostOps0 (W0 m ρ c) (Proc.devRef .tc main_v6) = _
    after_results
    rfl
  · show StableHlo.after hostOps0 (W0 m ρ c) (Proc.devRef .tc main_v12) = _
    after_results
    rfl
  · show StableHlo.after hostOps0 (W0 m ρ c) (Proc.devRef .tc main_v13) = _
    after_results
    rfl
  · show StableHlo.after hostOps0 (W0 m ρ c) (Proc.devRef .tc main_cst_2) = _
    after_results
    rfl

set_option maxHeartbeats 8000000 in
/-- The first stretch writes no argument array. -/
theorem first_stretch_args (m : (ℓ : Loc nD τ sig) → Buf (Elt Ideal) ℓ) (ρ : Dev nD → PrngReg) (c : Dev nD) :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_, ?_⟩ <;>
  · show StableHlo.after hostOps0 (W0 m ρ c) _ = _
    after_results_simp <;> rfl

set_option maxHeartbeats 4000000 in
/-- The `where` over any valuation: the comparison selects between the reciprocal square root and the zero. -/
theorem where_over (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  after_results_simp
  rfl

/-- The reference's normaliser stage has that shape. -/
theorem dis_shape (a1 : IVec S2x3200000 32) :
    val_main_v14 (F := Ideal) a1 = select (val_main_v12 (F := Ideal) a1) (val_main_v13 (F := Ideal) a1)
      (broadcastInDim S100000 ![] bcast_S_S100000 (id (val_main_cst_2 (F := Ideal)))) := rfl

set_option maxHeartbeats 4000000 in
/-- The `where` writes none of the buffers read later. -/
theorem where_keeps (V : Valuation τ sig (Elt Ideal)) :
    StableHlo.after hostOps0_1 V (Proc.devRef .tc main_v3) = V (Proc.devRef .tc main_v3)
    ∧ StableHlo.after hostOps0_1 V (Proc.devRef .tc main_v6) = V (Proc.devRef .tc main_v6)
    ∧ StableHlo.after hostOps0_1 V (Proc.devRef .tc main_arg0) = V (Proc.devRef .tc main_arg0)
    ∧ StableHlo.after hostOps0_1 V (Proc.devRef .tc main_arg2) = V (Proc.devRef .tc main_arg2)
    ∧ StableHlo.after hostOps0_1 V (Proc.devRef .tc main_arg3) = V (Proc.devRef .tc main_arg3)
    ∧ StableHlo.after hostOps0_1 V (Proc.devRef .tc main_arg4) = V (Proc.devRef .tc main_arg4)
    ∧ StableHlo.after hostOps0_1 V (Proc.devRef .tc main_arg5) = V (Proc.devRef .tc main_arg5)
    ∧ StableHlo.after hostOps0_1 V (Proc.devRef .tc main_arg6) = V (Proc.devRef .tc main_arg6)
    ∧ StableHlo.after hostOps0_1 V (Proc.devRef .tc main_arg7) = V (Proc.devRef .tc main_arg7) := by
  refine ⟨?_, ?_, ?_, ?_, ?_, ?_, ?_, ?_, ?_⟩ <;> (after_results_simp <;> rfl)

set_option maxHeartbeats 8000000 in
/-- The third stretch over any valuation: the normaliser as a column, the first region's input, the first bias as a
    one-row matrix. -/
theorem entry_over (V : Valuation τ sig (Elt Ideal)) :
    StableHlo.after hostOps0_2 V (Proc.devRef .tc main_v15) = colOf (V (Proc.devRef .tc main_v14))
    ∧ StableHlo.after hostOps0_2 V (Proc.devRef .tc main_v29)
        = aggOf (V (Proc.devRef .tc main_arg0)) (V (Proc.devRef .tc main_v14)) (V (Proc.devRef .tc main_v3)) (V (Proc.devRef .tc main_v6))
    ∧ StableHlo.after hostOps0_2 V (Proc.devRef .tc main_v30) = rowOf (V (Proc.devRef .tc main_arg3)) := by
  refine ⟨?_, ?_, ?_⟩ <;> (after_results_simp <;> rfl)

set_option maxHeartbeats 4000000 in
/-- The third stretch writes none of the buffers read later. -/
theorem entry_keeps (V : Valuation τ sig (Elt Ideal)) :
    StableHlo.after hostOps0_2 V (Proc.devRef .tc main_v3) = V (Proc.devRef .tc main_v3)
    ∧ StableHlo.after hostOps0_2 V (Proc.devRef .tc main_v6) = V (Proc.devRef .tc main_v6)
    ∧ StableHlo.after hostOps0_2 V (Proc.devRef .tc main_arg2) = V (Proc.devRef .tc main_arg2)
    ∧ StableHlo.after hostOps0_2 V (Proc.devRef .tc main_arg4) = V (Proc.devRef .tc main_arg4)
    ∧ StableHlo.after hostOps0_2 V (Proc.devRef .tc main_arg5) = V (Proc.devRef .tc main_arg5)
    ∧ StableHlo.after hostOps0_2 V (Proc.devRef .tc main_arg6) = V (Proc.devRef .tc main_arg6)
    ∧ StableHlo.after hostOps0_2 V (Proc.devRef .tc main_arg7) = V (Proc.devRef .tc main_arg7) := by
  refine ⟨?_, ?_, ?_, ?_, ?_, ?_, ?_⟩ <;> (after_results_simp <;> rfl)

/-! ## The first region's entry contents -/

/-- What the first region finds: the two lists and the normaliser are the reference's stages of the edge array, its
    input array is `aggOf` of them and the node features, and the weights and biases are the argument arrays. -/
theorem at_entry (m : (ℓ : Loc nD τ sig) → Buf (Elt Ideal) ℓ) (ρ : Dev nD → PrngReg) (c : Dev nD) :
    W3 m ρ c (Proc.devRef .tc main_v3) = val_main_v3 (F := Ideal) (m ((c : Thread nD τ).loc main_arg1))
    ∧ W3 m ρ c (Proc.devRef .tc main_v6) = val_main_v6 (F := Ideal) (m ((c : Thread nD τ).loc main_arg1))
    ∧ W3 m ρ c (Proc.devRef .tc main_v15) = colOf (val_main_v14 (F := Ideal) (m ((c : Thread nD τ).loc main_arg1)))
    ∧ W3 m ρ c (Proc.devRef .tc main_v29)
        = aggOf (m ((c : Thread nD τ).loc main_arg0)) (val_main_v14 (F := Ideal) (m ((c : Thread nD τ).loc main_arg1)))
            (val_main_v3 (F := Ideal) (m ((c : Thread nD τ).loc main_arg1))) (val_main_v6 (F := Ideal) (m ((c : Thread nD τ).loc main_arg1)))
    ∧ W3 m ρ c (Proc.devRef .tc main_v30) = rowOf (m ((c : Thread nD τ).loc main_arg3))
    ∧ W3 m ρ c (Proc.devRef .tc main_arg2) = m ((c : Thread nD τ).loc main_arg2)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7) := by
  obtain ⟨h3, h6, h12, h13, hc⟩ := first_stretch m ρ c
  obtain ⟨g0, g2, g3, g4, g5, g6, g7⟩ := first_stretch_args m ρ c
  obtain ⟨k3, k6, k0, k2, k3', k4, k5, k6', k7⟩ := where_keeps (W1 m ρ c)
  have h14 : W2 m ρ c (Proc.devRef .tc main_v14) = val_main_v14 (F := Ideal) (m ((c : Thread nD τ).loc main_arg1)) := by
    refine (where_over (W1 m ρ c)).trans ?_
    rw [h12, h13, hc]
    exact (dis_shape _).symm
  obtain ⟨e15, e29, e30⟩ := entry_over (W2 m ρ c)
  obtain ⟨f3, f6, f2, f4, f5, f6', f7⟩ := entry_keeps (W2 m ρ c)
  refine ⟨f3.trans (k3.trans h3), f6.trans (k6.trans h6), ?_, ?_, ?_, f2.trans (k2.trans g2), f4.trans (k4.trans g4),
    f5.trans (k5.trans g5), f6'.trans (k6'.trans g6), f7.trans (k7.trans g7)⟩
  · exact e15.trans (by rw [h14])
  · refine e29.trans ?_
    rw [h14, show W2 m ρ c (Proc.devRef .tc main_arg0) = m ((c : Thread nD τ).loc main_arg0) from k0.trans g0,
      show W2 m ρ c (Proc.devRef .tc main_v3) = _ from k3.trans h3, show W2 m ρ c (Proc.devRef .tc main_v6) = _ from k6.trans h6]
  · refine e30.trans ?_
    rw [show W2 m ρ c (Proc.devRef .tc main_arg3) = m ((c : Thread nD τ).loc main_arg3) from k3'.trans g3]

end Cert.KernelIdeal.Stages

end
-- ==== Proof.KernelBodies.lean ====
import proofs.«116216_j23287312679270_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# The three kernel bodies read at an index, on the extended reals

Each of the three kernels stores one value computed from the blocks it loaded. On the extended reals a format change is the
identity, a matrix product into the zero accumulator is the plain sum over the contracted coordinate, and the zero
literal is `0`; so each stored value, read at row `p` and column `q`, is a closed expression in the loaded blocks'
entries:

* the first body is `max (∑ k, x (p, k) * w (k, q) + b (0, q)) 0`: a matrix product, a row of biases added, and the
  positive part;
* the second body is `(∑ k, h (p, k) * w (k, q)) * s (p, 0)`: a matrix product, each row scaled by its own factor;
* the third body is `(∑ k, max (g (p, k) * s (p, 0) + b (0, k)) 0 * w (k, 0)) * s (p, 0)`: rows scaled, biases added,
  the positive part, a product with one column of weights, and the row's factor once more.

The order of every product and sum is the order in which the body computes it.
-/

noncomputable section

namespace Cert.KernelIdeal.Bodies

open Cert.KernelIdeal Cert.KernelIdeal.Gen Idealize.ShloMosaic Idealize.ShloMosaic.ValueIdx Idealize.SL.Sem

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products at an index -/

/-- The left operand's index of the first kernel's matrix product: its row is the output's row. -/
theorem lhs_a_0 (i : S5000x64.Idx) (c : dot_S5000x5_S5x64_S5000x64_1_0_0_1_n_n.contr.Idx) :
    (dot_S5000x5_S5x64_S5000x64_1_0_0_1_n_n.lhsIdx i c 0).val = (i 0).val := by
  unfold DotDims.lhsIdx
  rw [dif_neg (show ¬(0 : Fin S5000x5.rank) ∈ dot_S5000x5_S5x64_S5000x64_1_0_0_1_n_n.lhsBatch by decide), dif_pos (show (0 : Fin S5000x5.rank) ∈ dot_S5000x5_S5x64_S5000x64_1_0_0_1_n_n.lhsNonContracting by decide)]
  rfl
/-- The left operand's index of the first kernel's matrix product: its column is the contracted coordinate. -/
theorem lhs_a_1 (i : S5000x64.Idx) (c : dot_S5000x5_S5x64_S5000x64_1_0_0_1_n_n.contr.Idx) :
    (dot_S5000x5_S5x64_S5000x64_1_0_0_1_n_n.lhsIdx i c 1).val = (c ⟨0, by decide⟩).val :=
  dot_S5000x5_S5x64_S5000x64_1_0_0_1_n_n.lhsIdx_val_of_single rfl i c
/-- The right operand's index of the first kernel's matrix product: its row is the contracted coordinate. -/
theorem rhs_a_0 (i : S5000x64.Idx) (c : dot_S5000x5_S5x64_S5000x64_1_0_0_1_n_n.contr.Idx) :
    (dot_S5000x5_S5x64_S5000x64_1_0_0_1_n_n.rhsIdx i c 0).val = (c ⟨0, by decide⟩).val :=
  dot_S5000x5_S5x64_S5000x64_1_0_0_1_n_n.rhsIdx_val_of_single rfl i c
/-- The right operand's index of the first kernel's matrix product: its column is the output's column. -/
theorem rhs_a_1 (i : S5000x64.Idx) (c : dot_S5000x5_S5x64_S5000x64_1_0_0_1_n_n.contr.Idx) :
    (dot_S5000x5_S5x64_S5000x64_1_0_0_1_n_n.rhsIdx i c 1).val = (i 1).val := by
  unfold DotDims.rhsIdx
  rw [dif_neg (show ¬(1 : Fin S5x64.rank) ∈ dot_S5000x5_S5x64_S5000x64_1_0_0_1_n_n.rhsBatch by decide), dif_pos (show (1 : Fin S5x64.rank) ∈ dot_S5000x5_S5x64_S5000x64_1_0_0_1_n_n.rhsNonContracting by decide)]
  rfl

/-- On the extended reals the first kernel's matrix product into the zero accumulator, read at row `p` and column `q`, is the plain sum
    over the contracted coordinate `k` of the left operand at `(p, k)` times the right operand at `(k, q)`. -/
theorem matmul_a (l : FVec Ideal S5000x5 .bf16) (r : FVec Ideal S5x64 .bf16) (p : Fin 5000) (q : Fin 64) :
    matmul dot_S5000x5_S5x64_S5000x64_1_0_0_1_n_n none l r (constant (F := Ideal) S5000x64 .f32 0x00000000#32) (ix2 p q)
      = ∑ k : Fin 5, l (ix2 p k) * r (ix2 k q) := by
  simp only [matmul]
  rw [Ideal.matmul_constant_zero_apply, ← Equiv.sum_comp (contrEquiv1 dot_S5000x5_S5x64_S5000x64_1_0_0_1_n_n 5 rfl rfl).symm]
  refine Finset.sum_congr rfl fun k _ => ?_
  have hk := contrEquiv1_symm_val dot_S5000x5_S5x64_S5000x64_1_0_0_1_n_n 5 rfl rfl k
  have el : dot_S5000x5_S5x64_S5000x64_1_0_0_1_n_n.lhsIdx (ix2 p q) ((contrEquiv1 dot_S5000x5_S5x64_S5000x64_1_0_0_1_n_n 5 rfl rfl).symm k) = ix2 p k := funext fun a => Fin.ext (by
    match a with
    | ⟨0, _⟩ => exact lhs_a_0 _ _
    | ⟨1, _⟩ => exact (lhs_a_1 _ _).trans hk)
  have er : dot_S5000x5_S5x64_S5000x64_1_0_0_1_n_n.rhsIdx (ix2 p q) ((contrEquiv1 dot_S5000x5_S5x64_S5000x64_1_0_0_1_n_n 5 rfl rfl).symm k) = ix2 k q := funext fun a => Fin.ext (by
    match a with
    | ⟨0, _⟩ => exact (rhs_a_0 _ _).trans hk
    | ⟨1, _⟩ => exact rhs_a_1 _ _)
  rw [el, er]

/-- The left operand's index of the second kernel's matrix product: its row is the output's row. -/
theorem lhs_b_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's index of the second kernel's matrix product: its column is the contracted coordinate. -/
theorem lhs_b_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index of the second kernel's matrix product: its row is the contracted coordinate. -/
theorem rhs_b_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- The right operand's index of the second kernel's matrix product: its column is the output's column. -/
theorem rhs_b_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- On the extended reals the second kernel's matrix product into the zero accumulator, read at row `p` and column `q`, is the plain sum
    over the contracted coordinate `k` of the left operand at `(p, k)` times the right operand at `(k, q)`. -/
theorem matmul_b (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_b_0 _ _
    | ⟨1, _⟩ => exact (lhs_b_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_b_0 _ _).trans hk
    | ⟨1, _⟩ => exact rhs_b_1 _ _)
  rw [el, er]

/-- The left operand's index of the third kernel's matrix product: its row is the output's row. -/
theorem lhs_c_0 (i : S5000x1.Idx) (c : dot_S5000x64_S64x1_S5000x1_1_0_0_1_n_n.contr.Idx) :
    (dot_S5000x64_S64x1_S5000x1_1_0_0_1_n_n.lhsIdx i c 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The left operand's index of the third kernel's matrix product: its column is the contracted coordinate. -/
theorem lhs_c_1 (i : S5000x1.Idx) (c : dot_S5000x64_S64x1_S5000x1_1_0_0_1_n_n.contr.Idx) :
    (dot_S5000x64_S64x1_S5000x1_1_0_0_1_n_n.lhsIdx i c 1).val = (c ⟨0, by decide⟩).val :=
  dot_S5000x64_S64x1_S5000x1_1_0_0_1_n_n.lhsIdx_val_of_single rfl i c
/-- The right operand's index of the third kernel's matrix product: its row is the contracted coordinate. -/
theorem rhs_c_0 (i : S5000x1.Idx) (c : dot_S5000x64_S64x1_S5000x1_1_0_0_1_n_n.contr.Idx) :
    (dot_S5000x64_S64x1_S5000x1_1_0_0_1_n_n.rhsIdx i c 0).val = (c ⟨0, by decide⟩).val :=
  dot_S5000x64_S64x1_S5000x1_1_0_0_1_n_n.rhsIdx_val_of_single rfl i c
/-- The right operand's index of the third kernel's matrix product: its column is the output's column. -/
theorem rhs_c_1 (i : S5000x1.Idx) (c : dot_S5000x64_S64x1_S5000x1_1_0_0_1_n_n.contr.Idx) :
    (dot_S5000x64_S64x1_S5000x1_1_0_0_1_n_n.rhsIdx i c 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- On the extended reals the third kernel's matrix product into the zero accumulator, read at row `p` and column `q`, is the plain sum
    over the contracted coordinate `k` of the left operand at `(p, k)` times the right operand at `(k, q)`. -/
theorem matmul_c (l : FVec Ideal S5000x64 .bf16) (r : FVec Ideal S64x1 .bf16) (p : Fin 5000) (q : Fin 1) :
    matmul dot_S5000x64_S64x1_S5000x1_1_0_0_1_n_n none l r (constant (F := Ideal) S5000x1 .f32 0x00000000#32) (ix2 p q)
      = ∑ k : Fin 64, l (ix2 p k) * r (ix2 k q) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lhs_c_0 _ _
    | ⟨1, _⟩ => exact (lhs_c_1 _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (rhs_c_0 _ _).trans hk
    | ⟨1, _⟩ => exact rhs_c_1 _ _)
  rw [el, er]

/-! ## The three bodies at an index -/

/-- The first kernel's stored value at row `p`, column `q`: the positive part of the matrix product of the loaded
    `[5000, 5]` block and the `[5, 64]` weights at `(p, q)` plus the bias row's entry at `q`. -/
theorem body_a (x0 : Vec Ideal S5000x5 .f32) (x1 : Vec Ideal S5x64 .f32) (x2 : Vec Ideal S1x64 .f32)
    (p : Fin 5000) (q : Fin 64) :
    Gen.k0_pay1 (F := Ideal) x0 x1 x2 (ix2 p q)
      = max ((∑ k : Fin 5, x0 (ix2 p k) * x1 (ix2 k q)) + x2 (ix2 (0 : Fin 1) q)) 0 := by
  unfold Gen.k0_pay1
  rw [maximumf_apply, addf_apply, broadcast_apply, matmul_a, broadcastTo_1b_ab_apply, shapeCast_self, shapeCast_self,
    Ideal.ofBits_def, Ideal.ofBits_zero_f32]
  rfl

/-- The second kernel's stored value at row `p`, column `q`: the matrix product of the loaded `[5000, 64]` block and
    the `[64, 64]` weights at `(p, q)`, times the row's factor from the `[5000, 1]` column. -/
theorem body_b (x0 : Vec Ideal S5000x64 .f32) (x1 : Vec Ideal S64x64 .f32) (x2 : Vec Ideal S5000x1 .f32)
    (p : Fin 5000) (q : Fin 64) :
    Gen.k1_pay1 (F := Ideal) x0 x1 x2 (ix2 p q)
      = (∑ k : Fin 64, x0 (ix2 p k) * x1 (ix2 k q)) * x2 (ix2 p (0 : Fin 1)) := by
  unfold Gen.k1_pay1
  rw [mulf_apply, matmul_b, broadcastTo_a1_ab_apply, shapeCast_self, shapeCast_self]
  rfl

/-- The third kernel's stored value at row `p` (its one column): the sum over `k` of the positive part of the loaded
    `[5000, 64]` block's entry at `(p, k)` times the row's factor plus the bias row's entry at `k`, times the `[64, 1]`
    weight at `k`; and that sum times the row's factor (the second load of the same column). -/
theorem body_c (x0 : Vec Ideal S5000x64 .f32) (x1 : Vec Ideal S5000x1 .f32) (x2 : Vec Ideal S1x64 .f32)
    (x3 : Vec Ideal S64x1 .f32) (x4 : Vec Ideal S5000x1 .f32) (p : Fin 5000) :
    Gen.k2_pay1 (F := Ideal) x0 x1 x2 x3 x4 (ix2 p (0 : Fin 1))
      = (∑ k : Fin 64, max (x0 (ix2 p k) * x1 (ix2 p (0 : Fin 1)) + x2 (ix2 (0 : Fin 1) k)) 0 * x3 (ix2 k (0 : Fin 1)))
          * x4 (ix2 p (0 : Fin 1)) := by
  unfold Gen.k2_pay1
  rw [mulf_apply, matmul_c, shapeCast_self, shapeCast_self, shapeCast_self, shapeCast_self]
  refine congrArg (· * x4 (ix2 p (0 : Fin 1))) (Finset.sum_congr rfl fun k _ => ?_)
  rw [truncf_apply, truncf_apply, maximumf_apply, addf_apply, mulf_apply, broadcast_apply, broadcastTo_a1_ab_apply,
    broadcastTo_1b_ab_apply, Ideal.ofBits_def, Ideal.ofBits_zero_f32]

end Cert.KernelIdeal.Bodies

end
-- ==== Proof.KernelStages.lean ====
/-
  The idealized kernel's buffers from its first region to the return. Each region leaves, in its output array, its row
  function of its input arrays as it found them (every grid point writes one block of 5000 rows and the twenty blocks
  fill the array); a region writes nothing else, and a stretch of host operations writes only its own results. Chaining
  the three regions and the two stretches after the first region from the first region's entry contents gives the
  result array as `kernelOf` of the eight argument arrays.
-/
import proofs.«116216_j23287312679270_2_alg».proof.Proof.KernelEntry
import proofs.«116216_j23287312679270_2_alg».proof.Proof.KernelBodies

set_option maxRecDepth 16384

noncomputable section

namespace Cert.KernelIdeal.Stages

open Cert.KernelIdeal Cert.KernelIdeal.Gen Cert.KernelIdeal.Arrays Cert.KernelIdeal.Bodies Cert.ReferenceIdeal.ReadP
open Idealize.ShloMosaic Idealize.ShloMosaic.TcCoe Idealize.SL.Sem Idealize.ShloMosaic.StableHlo

/-! ## The two stretches after the first region, each over an arbitrary valuation -/

set_option maxHeartbeats 8000000 in
/-- The stretch before the third region: the second region's output gathered and summed, and the second bias as a
    one-row matrix. -/
theorem mid_over (V : Valuation τ sig (Elt Ideal)) :
    StableHlo.after hostOps2 V (Proc.devRef .tc main_v42)
        = agg64Of (V (Proc.devRef .tc main_v32)) (V (Proc.devRef .tc main_v3)) (V (Proc.devRef .tc main_v6))
    ∧ StableHlo.after hostOps2 V (Proc.devRef .tc main_v43) = rowOf (V (Proc.devRef .tc main_arg5)) := by
  refine ⟨?_, ?_⟩ <;> (after_results_simp <;> rfl)

set_option maxHeartbeats 4000000 in
/-- That stretch writes none of the buffers read later. -/
theorem mid_keeps (V : Valuation τ sig (Elt Ideal)) :
    StableHlo.after hostOps2 V (Proc.devRef .tc main_v3) = V (Proc.devRef .tc main_v3)
    ∧ StableHlo.after hostOps2 V (Proc.devRef .tc main_v6) = V (Proc.devRef .tc main_v6)
    ∧ StableHlo.after hostOps2 V (Proc.devRef .tc main_v15) = V (Proc.devRef .tc main_v15)
    ∧ StableHlo.after hostOps2 V (Proc.devRef .tc main_arg6) = V (Proc.devRef .tc main_arg6)
    ∧ StableHlo.after hostOps2 V (Proc.devRef .tc main_arg7) = V (Proc.devRef .tc main_arg7) := by
  refine ⟨?_, ?_, ?_, ?_, ?_⟩ <;> (after_results_simp <;> rfl)

set_option maxHeartbeats 8000000 in
/-- The last stretch: the third region's output gathered, summed, scaled by the normaliser, plus the last bias. -/
theorem tail_over (V : Valuation τ sig (Elt Ideal)) :
    StableHlo.after hostOps3 V (Proc.devRef .tc main_v58)
      = outOf (V (Proc.devRef .tc main_v44)) (V (Proc.devRef .tc main_v15)) (V (Proc.devRef .tc main_arg7))
          (V (Proc.devRef .tc main_v3)) (V (Proc.devRef .tc main_v6)) := by
  after_results_simp <;> rfl

/-! ## The chain -/

variable (m : (ℓ : Loc nD τ sig) → Buf (Elt Ideal) ℓ) (ρ : Dev nD → PrngReg)

/-- At the first region's exit its output array holds the first layer's activations; the lists, the normaliser column
    and the later weights and biases are as at its entry. -/
theorem after_region0 (c : Dev nD) :
    W4 m ρ c (Proc.devRef .tc main_v31) = hidden1 (m ((c : Thread nD τ).loc main_arg0)) (m ((c : Thread nD τ).loc main_arg1)) (m ((c : Thread nD τ).loc main_arg2)) (m ((c : Thread nD τ).loc main_arg3))
    ∧ W4 m ρ c (Proc.devRef .tc main_v3) = val_main_v3 (F := Ideal) (m ((c : Thread nD τ).loc main_arg1))
    ∧ W4 m ρ c (Proc.devRef .tc main_v6) = val_main_v6 (F := Ideal) (m ((c : Thread nD τ).loc main_arg1))
    ∧ W4 m ρ c (Proc.devRef .tc main_v15) = colOf (val_main_v14 (F := Ideal) (m ((c : Thread nD τ).loc main_arg1)))
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7) := by
  obtain ⟨e3, e6, e15, e29, e30, e2, e4, e5, e6', e7⟩ := at_entry m ρ c
  refine ⟨?_, (W4_of_ne m ρ c main_v3 (by decide)).trans e3, (W4_of_ne m ρ c main_v6 (by decide)).trans e6,
    (W4_of_ne m ρ c main_v15 (by decide)).trans e15, (W4_of_ne m ρ c main_arg4 (by decide)).trans e4,
    (W4_of_ne m ρ c main_arg5 (by decide)).trans e5, (W4_of_ne m ρ c main_arg6 (by decide)).trans e6',
    (W4_of_ne m ρ c main_arg7 (by decide)).trans e7⟩
  refine (W4_arr m ρ c 3).trans ((array_a body_a (V3 m ρ) c).trans ?_)
  show rowsA (W3 m ρ c (Proc.devRef .tc main_v29)) (W3 m ρ c (Proc.devRef .tc main_arg2)) (W3 m ρ c (Proc.devRef .tc main_v30)) = _
  rw [e29, e2, e30]
  rfl

/-- At the second region's exit its output array holds the second layer before aggregation. -/
theorem after_region1 (c : Dev nD) :
    W5 m ρ c (Proc.devRef .tc main_v32) = pre2 (m ((c : Thread nD τ).loc main_arg0)) (m ((c : Thread nD τ).loc main_arg1)) (m ((c : Thread nD τ).loc main_arg2)) (m ((c : Thread nD τ).loc main_arg3)) (m ((c : Thread nD τ).loc main_arg4))
    ∧ W5 m ρ c (Proc.devRef .tc main_v3) = val_main_v3 (F := Ideal) (m ((c : Thread nD τ).loc main_arg1))
    ∧ W5 m ρ c (Proc.devRef .tc main_v6) = val_main_v6 (F := Ideal) (m ((c : Thread nD τ).loc main_arg1))
    ∧ W5 m ρ c (Proc.devRef .tc main_v15) = colOf (val_main_v14 (F := Ideal) (m ((c : Thread nD τ).loc main_arg1)))
    ∧ W5 m ρ c (Proc.devRef .tc main_arg5) = m ((c : Thread nD τ).loc main_arg5)
    ∧ W5 m ρ c (Proc.devRef .tc main_arg6) = m ((c : Thread nD τ).loc main_arg6)
    ∧ W5 m ρ c (Proc.devRef .tc main_arg7) = m ((c : Thread nD τ).loc main_arg7) := by
  obtain ⟨e31, e3, e6, e15, e4, e5, e6', e7⟩ := after_region0 m ρ c
  refine ⟨?_, (W5_of_ne m ρ c main_v3 (by decide)).trans e3, (W5_of_ne m ρ c main_v6 (by decide)).trans e6,
    (show W5 m ρ c (Proc.devRef .tc main_v15) = W4 m ρ c (Proc.devRef .tc main_v15) from
      (W5_arr m ρ c 2).trans (((dat1 (V4 m ρ) c).arrAt_in 2 rfl _).trans (A_eq1 (V4 m ρ) c 2))).trans e15,
    (W5_of_ne m ρ c main_arg5 (by decide)).trans e5,
    (W5_of_ne m ρ c main_arg6 (by decide)).trans e6', (W5_of_ne m ρ c main_arg7 (by decide)).trans e7⟩
  refine (W5_arr m ρ c 3).trans ((array_b body_b (V4 m ρ) c).trans ?_)
  show rowsB (W4 m ρ c (Proc.devRef .tc main_v31)) (W4 m ρ c (Proc.devRef .tc main_arg4)) (W4 m ρ c (Proc.devRef .tc main_v15)) = _
  rw [e31, e4, e15]
  rfl

/-- At the third region's exit its output array holds the third layer before aggregation. -/
theorem after_region2 (c : Dev nD) :
    W7 m ρ c (Proc.devRef .tc main_v44) = pre3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ∧ W7 m ρ c (Proc.devRef .tc main_v3) = val_main_v3 (F := Ideal) (m ((c : Thread nD τ).loc main_arg1))
    ∧ W7 m ρ c (Proc.devRef .tc main_v6) = val_main_v6 (F := Ideal) (m ((c : Thread nD τ).loc main_arg1))
    ∧ W7 m ρ c (Proc.devRef .tc main_v15) = colOf (val_main_v14 (F := Ideal) (m ((c : Thread nD τ).loc main_arg1)))
    ∧ W7 m ρ c (Proc.devRef .tc main_arg7) = m ((c : Thread nD τ).loc main_arg7) := by
  obtain ⟨e32, e3, e6, e15, e5, e6', e7⟩ := after_region1 m ρ c
  obtain ⟨o42, o43⟩ := mid_over (W5 m ρ c)
  obtain ⟨k3, k6, k15, k6', k7⟩ := mid_keeps (W5 m ρ c)
  refine ⟨?_, (W7_of_ne m ρ c main_v3 (by decide)).trans (k3.trans e3), (W7_of_ne m ρ c main_v6 (by decide)).trans (k6.trans e6),
    (show W7 m ρ c (Proc.devRef .tc main_v15) = W6 m ρ c (Proc.devRef .tc main_v15) from
      (W7_arr m ρ c 1).trans (((dat2 (V6 m ρ) c).arrAt_in 1 rfl _).trans (A_eq2 (V6 m ρ) c 1))).trans (k15.trans e15),
    (W7_of_ne m ρ c main_arg7 (by decide)).trans (k7.trans e7)⟩
  refine (W7_arr m ρ c 4).trans ((array_c body_c (V6 m ρ) c).trans ?_)
  show rowsC (W6 m ρ c (Proc.devRef .tc main_v42)) (W6 m ρ c (Proc.devRef .tc main_v15)) (W6 m ρ c (Proc.devRef .tc main_v43))
    (W6 m ρ c (Proc.devRef .tc main_arg6)) = _
  rw [show W6 m ρ c (Proc.devRef .tc main_v42) = _ from o42, show W6 m ρ c (Proc.devRef .tc main_v43) = _ from o43,
    show W6 m ρ c (Proc.devRef .tc main_v15) = _ from k15, show W6 m ρ c (Proc.devRef .tc main_arg6) = _ from k6',
    e32, e3, e6, e15, e5, e6']
  rfl

/-- THE RESULT ARRAY at the last boundary is `kernelOf` of the eight argument arrays. -/
theorem result_eq (c : Dev nD) :
    W8 m ρ c (Proc.devRef .tc main_v58)
      = kernelOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨e44, e3, e6, e15, e7⟩ := after_region2 m ρ c
  refine (tail_over (W7 m ρ c)).trans ?_
  rw [e44, e3, e6, e15, e7]
  rfl

end Cert.KernelIdeal.Stages

end
-- ==== Proof.FiniteInputs.lean ====
import proofs.«116216_j23287312679270_2_alg».proof.Pre_finite_inputs
import Idealize.ShloMosaic.PureOps.Ideal.Laws
import Idealize.ShloMosaic.Lib.ValueIdx
import Idealize.ShloMosaic.Lib.ReduceAll

/-!
# The precondition read as "every float input is a real number"

The precondition is the conjunction, over the seven float arrays, of "every entry's absolute value is below `+∞`". On the
extended reals an entry's absolute value is `max x (-x)`, and that is below `+∞` exactly when `x` is neither `+∞` nor
`-∞` (the library reads a NaN pattern as the junk value `⊥`, which is `-∞`): when `x` is a real number.
-/

noncomputable section

namespace Cert.KernelIdeal.Finite

open Cert.Pre_finite_inputs Idealize.ShloMosaic Idealize.ShloMosaic.ValueIdx

/-- The scalar shape has one index. -/
instance : Subsingleton S_.Idx := ⟨fun a b => funext fun d => d.elim0⟩

/-- The word `0x7F800000` denotes `+∞`. -/
theorem ofBits_inf_f32 : Ideal.ofBits .f32 0x7F800000#32 = (⊤ : EReal) := by
  simp [Ideal.ofBits, Ideal.ieee]

/-- An extended real whose absolute value `max x (-x)` compares below the word for `+∞` is a real number. -/
theorem exists_real_of_abs_lt_inf (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- If the conjunction over all entries of "the absolute value is below `+∞`" holds of an array, every entry of the array
    is a real number. -/
theorem all_real {s : Shape} {axes : List (Fin s.rank)} (a inf : FVec Ideal s .f32) (init : IVec S_ 1)
    (hr : s.ReducesTo axes S_) (hu : 0 < S_.numel)
    (e : Host.reduce IntOp.andi (cmpf .olt (Host.absf a) inf) init hr hu ix0 = 1#1)
    (hinf : ∀ i, inf i = Ideal.ofBits .f32 0x7F800000#32) (i : s.Idx) :
    ∃ r : ℝ, a i = (r : EReal) := by
  have h := Host.reduce_andi_all _ _ hr hu ix0 e i
  refine exists_real_of_abs_lt_inf (a i) ?_
  rw [← hinf i]
  exact h

variable [Facts]

/-- If the precondition holds (its one bit is `1`), every entry of each of the seven float arrays is a real number. The
    integer array is not constrained. -/
theorem finite_inputs (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h0 := congrFun h ix0
  dsimp only [fn, fn_part1] at h0
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨h5, e3⟩ := IntOp.andi_eq_one.1 h4
  obtain ⟨e0, e2⟩ := IntOp.andi_eq_one.1 h5
  exact ⟨all_real a0 _ _ _ _ e0 fun _ => rfl, all_real a2 _ _ _ _ e2 fun _ => rfl, all_real a3 _ _ _ _ e3 fun _ => rfl,
    all_real a4 _ _ _ _ e4 fun _ => rfl, all_real a5 _ _ _ _ e5 fun _ => rfl, all_real a6 _ _ _ _ e6 fun _ => rfl,
    all_real a7 _ _ _ _ e7 fun _ => rfl⟩

/-- Under the precondition every entry of the first argument is a real number. -/
theorem real_arg0 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S100000x5.Idx) : ∃ r : ℝ, a0 i = (r : EReal) :=
  (finite_inputs a0 a1 a2 a3 a4 a5 a6 a7 h).1 i

/-- Under the precondition every entry of the third argument is a real number. -/
theorem real_arg2 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S5x64.Idx) : ∃ r : ℝ, a2 i = (r : EReal) :=
  (finite_inputs a0 a1 a2 a3 a4 a5 a6 a7 h).2.1 i

/-- Under the precondition every entry of the fourth argument is a real number. -/
theorem real_arg3 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S64.Idx) : ∃ r : ℝ, a3 i = (r : EReal) :=
  (finite_inputs a0 a1 a2 a3 a4 a5 a6 a7 h).2.2.1 i

/-- Under the precondition every entry of the fifth argument is a real number. -/
theorem real_arg4 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S64x64.Idx) : ∃ r : ℝ, a4 i = (r : EReal) :=
  (finite_inputs a0 a1 a2 a3 a4 a5 a6 a7 h).2.2.2.1 i

/-- Under the precondition every entry of the sixth argument is a real number. -/
theorem real_arg5 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S64.Idx) : ∃ r : ℝ, a5 i = (r : EReal) :=
  (finite_inputs a0 a1 a2 a3 a4 a5 a6 a7 h).2.2.2.2.1 i

/-- Under the precondition every entry of the seventh argument is a real number. -/
theorem real_arg6 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S64x1.Idx) : ∃ r : ℝ, a6 i = (r : EReal) :=
  (finite_inputs a0 a1 a2 a3 a4 a5 a6 a7 h).2.2.2.2.2.1 i

/-- Under the precondition every entry of the eighth argument is a real number. -/
theorem real_arg7 (a0 : FVec Ideal S100000x5 .f32) (a1 : IVec S2x3200000 32) (a2 : FVec Ideal S5x64 .f32)
    (a3 : FVec Ideal S64 .f32) (a4 : FVec Ideal S64x64 .f32) (a5 : FVec Ideal S64 .f32) (a6 : FVec Ideal S64x1 .f32)
    (a7 : FVec Ideal S1 .f32) (h : fn (F := Ideal) a0 a1 a2 a3 a4 a5 a6 a7 = fun _ => 1#1)
    (i : S1.Idx) : ∃ r : ℝ, a7 i = (r : EReal) :=
  (finite_inputs a0 a1 a2 a3 a4 a5 a6 a7 h).2.2.2.2.2.2 i

end Cert.KernelIdeal.Finite

end
-- ==== Proof.LibRowGatherScatter.lean ====
/-
  Rows of a matrix, gathered and scatter-added: what `stablehlo.gather` and an accumulating
  `stablehlo.scatter` of WHOLE ROWS read and hit, at coordinates.

  A node table `[N, C]` (or a vector `[N]`) is gathered at a list of `E` start indices `[E, 1]`: result row `e`
  is the operand row `idx[e, 0]`, read signed and clamped into `[0, N − 1]`. The scatter goes the other way: update
  row `e` is added into operand row `idx[e, 0]`, read signed and NOT clamped (an index outside `[0, N)` lands
  nowhere). Each statement is for an arbitrary record of dimension numbers whose fields are fixed by hypotheses, so it
  applies to any constant that has those fields.

  Pointwise: `gather_rows_row`, `gather_rows_col`, `gather_entries` (which operand element a result element reads);
  `resultIdx?_eq_some_iff`, `scatter_rows`, `scatter_entries` (which operand element an update element lands on).
  Whole arrays at an element: `gather_rows_apply`, `gather_entries_apply`, and at exact arithmetic
  `scatterAdd_rows_apply`, `scatterAdd_entries_apply` (the sum over update indices re-indexed as a sum over the
  edges that land on the row). Last, the wrap of a negative index (`select (x < 0) (x + n) x`) on an index that is
  already a row: `select_slt_addi`, `wrap_of_nonneg`, `clamp_wrap_row`.
-/
import Idealize.ShloMosaic.PureOps.Ideal
import Idealize.ShloMosaic.Lib.ValueIdx

noncomputable section

open scoped BigOperators

open Idealize.ShloMosaic Idealize.ShloMosaic.ValueIdx

namespace RowGatherScatter

/-! ## Gather of whole rows -/

/-- A gather of whole rows of a matrix (one start index per result row, the row axis collapsed, the
    column axis an offset axis of full width): result element `(e, c)` reads operand row
    `idx[e, 0]`, read signed and clamped into `[0, N − 1]`. -/
theorem gather_rows_row {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[1], [0], [], [], [0], 1, ![1, C], wf⟩ :
      GatherDims (⟨2, ![N, C]⟩ : Shape) (⟨2, ![E, 1]⟩ : Shape) (⟨2, ![E, C]⟩ : Shape)) j
      ⟨List.idxOf (0 : Fin 2) [0], hc⟩ = ix2 (j 0) 0 := by
    intro hc; funext b; refine Fin.ext ?_
    match b with
    | ⟨0, _⟩ => rfl
    | ⟨1, _⟩ => rfl
  rw [hsi]
  rfl

/-- … and column `c` of that row: the column coordinate is kept. -/
theorem gather_rows_col {N E C w : Nat}
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec (⟨2, ![E, 1]⟩ : Shape) w) (j : (⟨2, ![E, C]⟩ : Shape).Idx) :
    d.operandIdx j idx 1 = j 1 := by
  obtain ⟨od, cd, ob, sb, sm, iv, ss, wf⟩ := d
  simp only at h1 h2 h3 h4 h5 h6 h7
  subst h1 h2 h3 h4 h5 h6 h7
  refine Fin.ext ?_
  show GatherDims.start _ j idx 1 + GatherDims.batchCoord _ j 1 + GatherDims.offCoord _ j 1 = _
  rw [GatherDims.batchCoord_eq_zero _ _ _ List.not_mem_nil]
  unfold GatherDims.start
  rw [dif_neg (show (1 : Fin 2) ∉ [0] by decide)]
  unfold GatherDims.offCoord
  rw [dif_pos ((GatherDims.mem_sKept _ _).mpr ⟨show (1 : Fin 2) ∉ [0] by decide, List.not_mem_nil⟩)]
  simp only [Nat.add_zero, Nat.zero_add]
  rfl

/-- A gather of single entries of a vector (one start index per result entry, the one operand axis
    collapsed): result entry `e` reads operand entry `idx[e, 0]`, read signed and clamped into
    `[0, N − 1]`. -/
theorem gather_entries {N E w : Nat}
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec (⟨2, ![E, 1]⟩ : Shape) w) (j : (⟨1, ![E]⟩ : Shape).Idx) :
    (d.operandIdx j idx 0).val = min (idx (ix2 (j 0) 0)).toInt.toNat (N - 1) := by
  obtain ⟨od, cd, ob, sb, sm, iv, ss, wf⟩ := d
  simp only at h1 h2 h3 h4 h5 h6 h7
  subst h1 h2 h3 h4 h5 h6 h7
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ hc, GatherDims.siIdx (⟨[], [0], [], [], [0], 1, ![1], wf⟩ :
      GatherDims (⟨1, ![N]⟩ : Shape) (⟨2, ![E, 1]⟩ : Shape) (⟨1, ![E]⟩ : Shape)) j
      ⟨List.idxOf (0 : Fin 1) [0], hc⟩ = ix2 (j 0) 0 := by
    intro hc; funext b; refine Fin.ext ?_
    match b with
    | ⟨0, _⟩ => rfl
    | ⟨1, _⟩ => rfl
  rw [hsi]
  rfl

/-! ## Scatter of whole rows -/

/-- An update lands on operand element `i` exactly when, on every operand axis, the window's start
    (read signed, not clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro e a
      have e' := congrFun (Option.some.inj e) a
      have e'' : (d.start j idx a + (d.window j a : ℤ)).toNat = (i a).val := congrArg Fin.val e'
      have := (h a).1
      omega
    · intro e
      congr 1
      funext a
      refine Fin.ext ?_
      show (d.start j idx a + (d.window j a : ℤ)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- A scatter of whole rows into a matrix (one scatter index per update row, the row axis inserted,
    the column axis a window axis): update element `(e, c)` lands on operand element `(n, c')`
    exactly when the scatter index `idx[e, 0]`, read signed, is `n` and `c = c'`. An index outside
    `[0, N)` lands nowhere. -/
theorem scatter_rows {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (idx : IVec (⟨2, ![E, 1]⟩ : Shape) w) (j : (⟨2, ![E, C]⟩ : Shape).Idx) (i : (⟨2, ![N, C]⟩ : Shape).Idx) :
    d.resultIdx? j idx = some i ↔ (idx (ix2 (j 0) 0)).toInt = ((i 0).val : ℤ) ∧ (j 1).val = (i 1).val := by
  rw [resultIdx?_eq_some_iff]
  obtain ⟨uw, iw, sd, iv, wf⟩ := d
  simp only at h1 h2 h3 h4
  subst h1 h2 h3 h4
  have h10 : (1 : Fin 2) ∉ [0] := by decide
  have hs0 : ScatterDims.start (⟨[1], [0], [0], 1, wf⟩ :
      ScatterDims (⟨2, ![N, C]⟩ : Shape) (⟨2, ![E, 1]⟩ : Shape) (⟨2, ![E, C]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ :
      ScatterDims (⟨2, ![N, C]⟩ : Shape) (⟨2, ![E, 1]⟩ : Shape) (⟨2, ![E, C]⟩ : Shape)) j 0 = 0 := by
    unfold ScatterDims.window
    rw [dif_neg]
    intro h
    simp only [Shape.kept, List.mem_filter, decide_eq_true_eq] at h
    exact h.2 (List.mem_singleton.mpr rfl)
  have hs1 : ScatterDims.start (⟨[1], [0], [0], 1, wf⟩ :
      ScatterDims (⟨2, ![N, C]⟩ : Shape) (⟨2, ![E, 1]⟩ : Shape) (⟨2, ![E, C]⟩ : Shape)) j idx 1 = 0 := by
    unfold ScatterDims.start
    rw [dif_neg h10]
  have hw1 : ScatterDims.window (⟨[1], [0], [0], 1, wf⟩ :
      ScatterDims (⟨2, ![N, C]⟩ : Shape) (⟨2, ![E, 1]⟩ : Shape) (⟨2, ![E, C]⟩ : Shape)) j 1 = (j 1).val := by
    unfold ScatterDims.window
    rw [dif_pos (by
      simp only [Shape.kept, List.mem_filter, decide_eq_true_eq]
      exact ⟨List.mem_finRange _, h10⟩)]
    rfl
  constructor
  · intro h
    have a0 := h 0
    have a1 := h 1
    rw [hs0, hw0] at a0
    rw [hs1, hw1] at a1
    refine ⟨by simpa using a0, by exact_mod_cast (by simpa using a1)⟩
  · rintro ⟨e0, e1⟩ a
    match a with
    | ⟨0, _⟩ =>
      show ScatterDims.start _ j idx 0 + (ScatterDims.window _ j 0 : ℤ) = _
      rw [hs0, hw0, e0]; simp
    | ⟨1, _⟩ =>
      show ScatterDims.start _ j idx 1 + (ScatterDims.window _ j 1 : ℤ) = _
      rw [hs1, hw1, e1]; simp

/-- A scatter of single entries into a vector (one scatter index per update entry, the one operand
    axis inserted): update entry `e` lands on operand entry `n` exactly when the scatter index
    `idx[e, 0]`, read signed, is `n`. -/
theorem scatter_entries {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (idx : IVec (⟨2, ![E, 1]⟩ : Shape) w) (j : (⟨1, ![E]⟩ : Shape).Idx) (i : (⟨1, ![N]⟩ : Shape).Idx) :
    d.resultIdx? j idx = some i ↔ (idx (ix2 (j 0) 0)).toInt = ((i 0).val : ℤ) := by
  rw [resultIdx?_eq_some_iff]
  obtain ⟨uw, iw, sd, iv, wf⟩ := d
  simp only at h1 h2 h3 h4
  subst h1 h2 h3 h4
  have hs0 : ScatterDims.start (⟨[], [0], [0], 1, wf⟩ :
      ScatterDims (⟨1, ![N]⟩ : Shape) (⟨2, ![E, 1]⟩ : Shape) (⟨1, ![E]⟩ : Shape)) j idx 0
      = (idx (ix2 (j 0) 0)).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[], [0], [0], 1, wf⟩ :
      ScatterDims (⟨1, ![N]⟩ : Shape) (⟨2, ![E, 1]⟩ : Shape) (⟨1, ![E]⟩ : Shape)) j 0 = 0 := by
    unfold ScatterDims.window
    rw [dif_neg]
    intro h
    simp only [Shape.kept, List.mem_filter, decide_eq_true_eq] at h
    exact h.2 (List.mem_singleton.mpr rfl)
  constructor
  · intro h
    have a0 := h 0
    rw [hs0, hw0] at a0
    simpa using a0
  · intro e0 a
    match a with
    | ⟨0, _⟩ =>
      show ScatterDims.start _ j idx 0 + (ScatterDims.window _ j 0 : ℤ) = _
      rw [hs0, hw0, e0]; simp

/-! ## The two operations read at an element of the whole array -/

/-- The operand row a gather reads for result row (edge) `e`: the start index `idx[e, 0]`, read
    signed and clamped into `[0, N − 1]`. -/
def grow {N : Nat} (hN : 0 < N) {E w : Nat} (idx : IVec (⟨2, ![E, 1]⟩ : Shape) w) (e : Fin E) : Fin N :=
  ⟨min (idx (ix2 e 0)).toInt.toNat (N - 1), by omega⟩

/-- The clamped row's value. -/
theorem grow_val {N : Nat} (hN : 0 < N) {E w : Nat} (idx : IVec (⟨2, ![E, 1]⟩ : Shape) w) (e : Fin E) :
    (grow hN idx e).val = min (idx (ix2 e 0)).toInt.toNat (N - 1) := rfl

/-- A start index that is already a row `v < N` is read as that row. -/
theorem grow_eq_of_toInt {N : Nat} (hN : 0 < N) {E w : Nat} (idx : IVec (⟨2, ![E, 1]⟩ : Shape) w) (e : Fin E)
    (v : Fin N) (h : (idx (ix2 e 0)).toInt = (v.val : ℤ)) : grow hN idx e = v := by
  refine Fin.ext ?_
  rw [grow_val, h, Int.toNat_natCast]
  have := v.isLt
  omega

/-- THE ROW GATHER AT `(e, c)`: the matrix at the clamped row of edge `e`, column `c`. -/
theorem gather_rows_apply {α : Type} {N E C w : Nat} (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec (⟨2, ![E, 1]⟩ : Shape) w) (e : Fin E) (c : Fin C) :
    Host.gather d x idx (ix2 e c) = x (ix2 (grow hN idx e) c) := by
  unfold Host.gather
  congr 1
  funext a
  match a with
  | ⟨0, _⟩ => exact Fin.ext (gather_rows_row d h1 h2 h3 h4 h5 h6 h7 idx (ix2 e c))
  | ⟨1, _⟩ => exact gather_rows_col d h1 h2 h3 h4 h5 h6 h7 idx (ix2 e c)

/-- THE ENTRY GATHER AT `e`: the vector at the clamped start index of edge `e`. -/
theorem gather_entries_apply {α : Type} {N E w : Nat} (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) :
    Host.gather d x idx (ix1 e) = x (ix1 (grow hN idx e)) := by
  unfold Host.gather
  congr 1
  funext a
  match a with
  | ⟨0, _⟩ => exact Fin.ext (gather_entries d h1 h2 h3 h4 h5 h6 h7 idx (ix1 e))

/-- THE ROW SCATTER-ADD AT `(v, c)`, exact arithmetic: the operand's element plus the sum, over the
    edges `e` whose scatter index `idx[e, 0]` (read signed) is the row `v`, of the update's element
    `(e, c)`. -/
theorem scatterAdd_rows_apply {φ : FTy} {N E C w : Nat}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (z : FVec Ideal (⟨2, ![N, C]⟩ : Shape) φ) (idx : IVec (⟨2, ![E, 1]⟩ : Shape) w)
    (upd : FVec Ideal (⟨2, ![E, C]⟩ : Shape) φ) (v : Fin N) (c : Fin C) :
    Host.scatterAdd (F := Ideal) d z idx upd (ix2 v c)
      = z (ix2 v c) + ∑ e ∈ Finset.univ.filter (fun e : Fin E => (idx (ix2 e 0)).toInt = (v.val : ℤ)), upd (ix2 e c) := by
  show z (ix2 v c) + ∑ j ∈ Finset.univ.filter (fun j => d.resultIdx? j idx = some (ix2 v c)), upd j = _
  congr 1
  have key : ∀ j : (⟨2, ![E, C]⟩ : Shape).Idx, d.resultIdx? j idx = some (ix2 v c) ↔
      (idx (ix2 (j 0) 0)).toInt = (v.val : ℤ) ∧ (j 1).val = c.val :=
    fun j => scatter_rows d h1 h2 h3 h4 idx j (ix2 v c)
  have back : ∀ j : (⟨2, ![E, C]⟩ : Shape).Idx, (j 1).val = c.val → ix2 (j 0) c = j := by
    intro j hj
    have : j 1 = c := Fin.ext hj
    rw [← this]; exact (eq_ix2 j).symm
  refine Finset.sum_nbij' (fun j => (j 0 : Fin E)) (fun e => ix2 e c) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e c)).mpr ⟨(Finset.mem_filter.mp he).2, rfl⟩⟩
  · intro j hj
    exact back j ((key j).mp (Finset.mem_filter.mp hj).2).2
  · intro e _
    rfl
  · intro j hj
    exact congrArg upd (back j ((key j).mp (Finset.mem_filter.mp hj).2).2).symm

/-- THE ENTRY SCATTER-ADD AT `v`, exact arithmetic: the operand's entry plus the sum, over the edges
    `e` whose scatter index `idx[e, 0]` (read signed) is `v`, of the update's entry `e`. -/
theorem scatterAdd_entries_apply {φ : FTy} {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (z : FVec Ideal (⟨1, ![N]⟩ : Shape) φ) (idx : IVec (⟨2, ![E, 1]⟩ : Shape) w)
    (upd : FVec Ideal (⟨1, ![E]⟩ : Shape) φ) (v : Fin N) :
    Host.scatterAdd (F := Ideal) d z idx upd (ix1 v)
      = z (ix1 v) + ∑ e ∈ Finset.univ.filter (fun e : Fin E => (idx (ix2 e 0)).toInt = (v.val : ℤ)), upd (ix1 e) := by
  show z (ix1 v) + ∑ j ∈ Finset.univ.filter (fun j => d.resultIdx? j idx = some (ix1 v)), upd j = _
  congr 1
  have key : ∀ j : (⟨1, ![E]⟩ : Shape).Idx, d.resultIdx? j idx = some (ix1 v) ↔
      (idx (ix2 (j 0) 0)).toInt = (v.val : ℤ) :=
    fun j => scatter_entries d h1 h2 h3 h4 idx j (ix1 v)
  refine Finset.sum_nbij' (fun j => (j 0 : Fin E)) (fun e => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

/-! ## The wrap of a negative index -/

/-- A select between `x + n` and `x` on the signed comparison `x < z` is the `if` on it. -/
theorem select_slt_addi {w : Nat} (x z n : BitVec w) :
    Scalar.select (IntOp.cmpi .slt x z) (IntOp.addi x n) x = if x.toInt < z.toInt then x + n else x := by
  by_cases h : x.toInt < z.toInt
  · simp [Scalar.select, IntOp.cmpi, IntOp.addi, BitVec.slt, h]
  · simp [Scalar.select, IntOp.cmpi, IntOp.addi, BitVec.slt, h]

/-- The same for whole arrays, read at an element. -/
theorem select_slt_addi_apply {s : Shape} {w : Nat} (x z n : IVec s w) (i : s.Idx) :
    select (cmpi .slt x z) (addi x n) x i = if (x i).toInt < (z i).toInt then x i + n i else x i :=
  select_slt_addi (x i) (z i) (n i)

/-- An index that is not negative is not wrapped. -/
theorem wrap_of_nonneg {w : Nat} (x n : BitVec w) (h : 0 ≤ x.toInt) :
    Scalar.select (IntOp.cmpi .slt x 0#w) (IntOp.addi x n) x = x := by
  rw [select_slt_addi, if_neg]
  rw [BitVec.toInt_zero]; omega

/-- An index that is already a row `v < N` survives the wrap and the gather's clamp into `[0, N − 1]`:
    both leave `v`. -/
theorem clamp_wrap_row {w : Nat} (b n : BitVec w) (v N : Nat) (hb : b.toInt = (v : ℤ)) (hv : v < N) :
    min (Scalar.select (IntOp.cmpi .slt b 0#w) (IntOp.addi b n) b).toInt.toNat (N - 1) = v := by
  rw [wrap_of_nonneg b n (by rw [hb]; exact Int.natCast_nonneg _), hb, Int.toNat_natCast]
  omega

/-- The plain form: with `w = if b < 0 then b + n else b` for a `b` that reads as the row `v < N`,
    the clamp of `w` into `[0, N − 1]` is `v`. -/
theorem clamp_wrap_row' {w : Nat} (b n : BitVec w) (v N : Nat) (hb : b.toInt = (v : ℤ)) (hv : v < N) :
    min (if b.toInt < 0 then b + n else b).toInt.toNat (N - 1) = v := by
  rw [if_neg (by rw [hb]; exact not_lt.mpr (Int.natCast_nonneg _)), hb, Int.toNat_natCast]
  omega

end RowGatherScatter

end
-- ==== Proof.LibRealSums.lean ====
import Idealize.ShloMosaic.PureOps.Ideal

/-!
# Finite sums of real numbers inside the extended reals

On the extended reals multiplication does not distribute over addition at the infinities
(`(⊤ + ⊥) * c` and `⊤ * c + ⊥ * c` differ, and a product with `0` forgets an infinity), so
the usual rearrangements of a weighted finite sum hold only when every entry is a real number.
This file names that hypothesis, `IsReal`, shows that it is kept by the arithmetic that builds
a weighted sum, and proves the two rearrangements of a weighted sum that a normalised graph
convolution needs:

* a factor common to all terms may be applied after the sum instead of inside it
  (`sum_mul_mul_right`);
* a linear map applied to a weighted sum of vectors is the weighted sum of the images
  (`sum_proj_of_sum_scaled`): distributivity together with the exchange of two finite sums.
-/

open scoped BigOperators

namespace RealSums

/-- An extended real is *real* when it is the image of a real number, that is, neither
    `⊤` nor `⊥`. -/
def IsReal (a : EReal) : Prop := ∃ r : ℝ, a = (r : EReal)

/-! ### Closure of the real numbers under the arithmetic of a weighted sum -/

/-- The image of a real number in the extended reals is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- A real extended real is not `⊤`. -/
theorem IsReal.ne_top {a : EReal} (ha : IsReal a) : a ≠ ⊤ := by
  obtain ⟨x, rfl⟩ := ha
  exact EReal.coe_ne_top x

/-- A real extended real is not `⊥`. -/
theorem IsReal.ne_bot {a : EReal} (ha : IsReal a) : a ≠ ⊥ := by
  obtain ⟨x, rfl⟩ := ha
  exact EReal.coe_ne_bot x

/-- An extended real is real exactly when it is neither `⊥` nor `⊤`. -/
theorem isReal_iff_ne {a : EReal} : IsReal a ↔ a ≠ ⊥ ∧ a ≠ ⊤ :=
  ⟨fun h => ⟨h.ne_bot, h.ne_top⟩, fun h => ⟨a.toReal, (EReal.coe_toReal h.2 h.1).symm⟩⟩

/-- The sum of two real numbers is real. -/
theorem isReal_add {a b : EReal} (ha : IsReal a) (hb : IsReal b) : IsReal (a + b) := by
  obtain ⟨x, rfl⟩ := ha
  obtain ⟨y, rfl⟩ := hb
  exact ⟨x + y, (EReal.coe_add x y).symm⟩

/-- The product of two real numbers is real. -/
theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is real. -/
theorem isReal_neg {a : EReal} (ha : IsReal a) : IsReal (-a) := by
  obtain ⟨x, rfl⟩ := ha
  exact ⟨-x, (EReal.coe_neg x).symm⟩

/-- The difference of two real numbers is real. -/
theorem isReal_sub {a b : EReal} (ha : IsReal a) (hb : IsReal b) : IsReal (a - b) := by
  obtain ⟨x, rfl⟩ := ha
  obtain ⟨y, rfl⟩ := hb
  exact ⟨x - y, (EReal.coe_sub x y).symm⟩

/-- The larger of two real numbers is real (it is one of the two). -/
theorem isReal_max {a b : EReal} (ha : IsReal a) (hb : IsReal b) : IsReal (max a b) := by
  rcases le_total a b with h | h
  · rw [max_eq_right h]; exact hb
  · rw [max_eq_left h]; exact ha

/-- The smaller of two real numbers is real (it is one of the two). -/
theorem isReal_min {a b : EReal} (ha : IsReal a) (hb : IsReal b) : IsReal (min a b) := by
  rcases le_total a b with h | h
  · rw [min_eq_left h]; exact ha
  · rw [min_eq_right h]; exact hb

/-- A finite sum of real numbers is real. -/
theorem isReal_sum {ι : Type*} (s : Finset ι) (f : ι → EReal)
    (h : ∀ i ∈ s, IsReal (f i)) : IsReal (∑ i ∈ s, f i) :=
  Finset.sum_induction f IsReal (fun _ _ => isReal_add) isReal_zero h

/-- A sum of real numbers over all of a finite type is real. -/
theorem isReal_sum_univ {κ : Type*} [Fintype κ] (f : κ → EReal)
    (h : ∀ k, IsReal (f k)) : IsReal (∑ k, f k) :=
  isReal_sum Finset.univ f (fun k _ => h k)

/-- A natural number is real. -/
theorem isReal_natCast (n : ℕ) : IsReal ((n : ℕ) : EReal) :=
  ⟨(n : ℝ), (EReal.coe_natCast (n := n)).symm⟩

/-- A count, written as a sum of ones over a finite set, is real. -/
theorem isReal_sum_one {ι : Type*} (s : Finset ι) : IsReal (∑ _i ∈ s, (1 : EReal)) :=
  isReal_sum s (fun _ => 1) (fun _ _ => isReal_one)

/-- The reciprocal square root of a positive real number is the real number `(√r)⁻¹`. -/
theorem rsqrt_coe_of_pos (r : ℝ) (hr : 0 < r) :
    Idealize.ShloMosaic.Ideal.rsqrt (r : EReal) = (((Real.sqrt r)⁻¹ : ℝ) : EReal) := by
  rw [Idealize.ShloMosaic.Ideal.rsqrt_coe, if_neg (not_lt.mpr hr.le), if_neg hr.ne']

/-- The reciprocal square root of a positive real number is real. -/
theorem isReal_rsqrt_coe (r : ℝ) (hr : 0 < r) :
    IsReal (Idealize.ShloMosaic.Ideal.rsqrt (r : EReal)) :=
  ⟨(Real.sqrt r)⁻¹, rsqrt_coe_of_pos r hr⟩

/-- The reciprocal square root of a positive real extended real is real. -/
theorem isReal_rsqrt {a : EReal} (ha : IsReal a) (hpos : 0 < a) :
    IsReal (Idealize.ShloMosaic.Ideal.rsqrt a) := by
  obtain ⟨x, rfl⟩ := ha
  exact isReal_rsqrt_coe x (EReal.coe_pos.mp hpos)

/-! ### The coercion from the reals commutes with finite sums -/

/-- The image in the extended reals of a finite sum of real numbers is the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro a t hat ih
    rw [Finset.sum_insert hat, Finset.sum_insert hat, EReal.coe_add, ih]

/-! ### Distributivity over real numbers -/

/-- Multiplication on the right distributes over the sum of two real numbers. -/
theorem add_mul_of_isReal {a b c : EReal} (ha : IsReal a) (hb : IsReal b) (hc : IsReal c) :
    (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add,
    add_mul]

/-- Multiplication on the left distributes over the sum of two real numbers. -/
theorem mul_add_of_isReal {a b c : EReal} (ha : IsReal a) (hb : IsReal b) (hc : IsReal c) :
    a * (b + c) = a * b + a * c := by
  rw [mul_comm a (b + c), add_mul_of_isReal hb hc ha, mul_comm b a, mul_comm c a]

/-- A real factor on the right distributes over a finite sum of real numbers. -/
theorem sum_mul_of_isReal {ι : Type*} (s : Finset ι) (f : ι → EReal) (d : EReal)
    (hf : ∀ i ∈ s, IsReal (f i)) (hd : IsReal d) :
    (∑ i ∈ s, f i) * d = ∑ i ∈ s, f i * d := by
  classical
  revert hf
  refine Finset.induction_on s ?_ ?_
  · intro _
    simp only [Finset.sum_empty, zero_mul]
  · intro a t hat ih hf
    have hft : ∀ i ∈ t, IsReal (f i) := fun i hi => hf i (Finset.mem_insert_of_mem hi)
    rw [Finset.sum_insert hat, Finset.sum_insert hat,
      add_mul_of_isReal (hf a (Finset.mem_insert_self a t)) (isReal_sum t f hft) hd, ih hft]

/-- A real factor on the left distributes over a finite sum of real numbers. -/
theorem mul_sum_of_isReal {ι : Type*} (s : Finset ι) (f : ι → EReal) (d : EReal)
    (hf : ∀ i ∈ s, IsReal (f i)) (hd : IsReal d) :
    d * (∑ i ∈ s, f i) = ∑ i ∈ s, d * f i := by
  rw [mul_comm, sum_mul_of_isReal s f d hf hd]
  exact Finset.sum_congr rfl (fun i _ => mul_comm (f i) d)

/-! ### The two rearrangements of a weighted sum -/

/-- A common real factor may be applied after a weighted sum of real numbers instead of to
    each term: `(∑ₑ aₑ bₑ) d = ∑ₑ aₑ (bₑ d)`. -/
theorem sum_mul_mul_right {ι : Type*} (s : Finset ι) (a b : ι → EReal) (d : EReal)
    (ha : ∀ e ∈ s, IsReal (a e)) (hb : ∀ e ∈ s, IsReal (b e)) (hd : IsReal d) :
    (∑ e ∈ s, a e * b e) * d = ∑ e ∈ s, a e * (b e * d) := by
  rw [sum_mul_of_isReal s (fun e => a e * b e) d (fun e he => isReal_mul (ha e he) (hb e he)) hd]
  exact Finset.sum_congr rfl (fun e _ => mul_assoc (a e) (b e) d)

/-- A linear functional applied to a scaled weighted sum of real vectors is the weighted sum
    of its values on the vectors:
    `∑_f ((∑ₑ xₑ_f bₑ) d) w_f = ∑ₑ (∑_f xₑ_f w_f) (bₑ d)`,
    by distributivity over real numbers and the exchange of the two finite sums. -/
theorem sum_proj_of_sum_scaled {ι κ : Type*} [Fintype κ] (s : Finset ι) (x : ι → κ → EReal)
    (b : ι → EReal) (d : EReal) (w : κ → EReal)
    (hx : ∀ e ∈ s, ∀ f, IsReal (x e f)) (hb : ∀ e ∈ s, IsReal (b e)) (hd : IsReal d)
    (hw : ∀ f, IsReal (w f)) :
    ∑ f, ((∑ e ∈ s, x e f * b e) * d) * w f = ∑ e ∈ s, (∑ f, x e f * w f) * (b e * d) := by
  have hL : ∀ f, ((∑ e ∈ s, x e f * b e) * d) * w f = ∑ e ∈ s, (x e f * w f) * (b e * d) := by
    intro f
    rw [mul_assoc,
      sum_mul_of_isReal s (fun e => x e f * b e) (d * w f)
        (fun e he => isReal_mul (hx e he f) (hb e he)) (isReal_mul hd (hw f))]
    refine Finset.sum_congr rfl (fun e _ => ?_)
    rw [mul_comm d (w f), mul_mul_mul_comm]
  have hR : ∀ e ∈ s, (∑ f, x e f * w f) * (b e * d) = ∑ f, (x e f * w f) * (b e * d) := by
    intro e he
    exact sum_mul_of_isReal Finset.univ (fun f => x e f * w f) (b e * d)
      (fun f _ => isReal_mul (hx e he f) (hw f)) (isReal_mul (hb e he) hd)
  rw [Finset.sum_congr rfl (fun f _ => hL f), Finset.sum_congr rfl hR]
  exact Finset.sum_comm

end RealSums
-- ==== Proof.NormaliserFacts.lean ====
import proofs.«116216_j23287312679270_2_alg».proof.Proof.RefReadPatched
import proofs.«116216_j23287312679270_2_alg».proof.Proof.LibRowGatherScatter
import proofs.«116216_j23287312679270_2_alg».proof.Proof.LibRealSums
import Idealize.ShloMosaic.Lib.IdealHost

/-!
# Two facts about the normaliser of the reference graph convolution

The reference normalises each edge by `deg⁻¹ᐟ²` of its two end nodes, where `deg v` counts the list
entries whose destination is `v` and a node of degree zero gets the factor `0`.

* `isReal_normaliser`: at every node the factor is a real number (the degree is a finite count, and
  the reciprocal square root is taken only where the count is positive).
* `grow_dest`: a list entry whose destination, read signed, is the node `v` gathers the factor of `v`:
  the wrap of a negative index leaves an index that is not negative alone, and the gather's clamp
  leaves an index below the node count alone.
-/

noncomputable section

open scoped BigOperators

namespace Cert.ReferenceIdeal.Normaliser

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The destination of list entry `e`, read at the column form of the list, is the list's entry `e`;
    so is the wrapped destination's column form read through to the unwrapped list. -/
theorem dest_wrapped_toInt (a1 : (⟨S2x3200000, .i32⟩ : BufTy).Contents (Elt Ideal)) (e : Fin 3300000) (v : Fin 100000)
    (h : (val_main_v9 (F := Ideal) a1 (ix2 e 0)).toInt = (v.val : ℤ)) :
    (val_main_v27 (F := Ideal) a1 (ix2 e 0)).toInt = (v.val : ℤ) := by
  rw [val_main_v9_apply] at h
  have h6 : (val_main_v6 (F := Ideal) a1 (idx_main_v27 (ix2 e 0))).toInt = (v.val : ℤ) := h
  rw [val_main_v27_apply, val_main_v26_apply, val_main_v23_apply, val_main_v25_apply, val_main_v22_apply,
    val_main_c_4_apply,
    RowGatherScatter.wrap_of_nonneg _ _ (by rw [h6]; exact Int.natCast_nonneg _)]
  exact h6

/-- A list entry whose destination, read signed, is the node `v` gathers at row `v`. -/
theorem grow_dest (a1 : (⟨S2x3200000, .i32⟩ : BufTy).Contents (Elt Ideal)) (e : Fin 3300000) (v : Fin 100000)
    (h : (val_main_v9 (F := Ideal) a1 (ix2 e 0)).toInt = (v.val : ℤ)) :
    RowGatherScatter.grow (N := 100000) (by decide) (val_main_v27 (F := Ideal) a1) e = v :=
  RowGatherScatter.grow_eq_of_toInt _ _ e v (dest_wrapped_toInt a1 e v h)

/-- The degree of node `v`: zero plus a one for every list entry whose destination, read signed, is `v`. -/
theorem degree_apply (a1 : (⟨S2x3200000, .i32⟩ : BufTy).Contents (Elt Ideal)) (v : Fin 100000) :
    val_main_v10 (F := Ideal) a1 (ix1 v)
      = ∑ _e ∈ Finset.univ.filter (fun e : Fin 3300000 =>
          (val_main_v9 (F := Ideal) a1 (ix2 e 0)).toInt = (v.val : ℤ)), (1 : EReal) := by
  unfold val_main_v10
  rw [RowGatherScatter.scatterAdd_entries_apply _ rfl rfl rfl rfl]
  rw [val_main_v8_apply, val_main_cst_0_apply, Ideal.ofBits_def, Ideal.ofBits_zero_f32, zero_add]
  refine Finset.sum_congr rfl fun e _ => ?_
  rw [val_main_v7_apply, val_main_cst_apply, Ideal.ofBits_def, Ideal.ofBits_one_f32]

/-- The degree of a node is a real number. -/
theorem isReal_degree (a1 : (⟨S2x3200000, .i32⟩ : BufTy).Contents (Elt Ideal)) (v : S100000.Idx) :
    RealSums.IsReal (val_main_v10 (F := Ideal) a1 v) := by
  obtain ⟨k, rfl⟩ : ∃ k : Fin 100000, v = ix1 k := ⟨v 0, eq_ix1 v⟩
  rw [degree_apply]
  exact RealSums.isReal_sum_one _

/-- THE NORMALISER IS REAL at every node: the reciprocal square root of a positive count, or zero. -/
theorem isReal_normaliser (a1 : (⟨S2x3200000, .i32⟩ : BufTy).Contents (Elt Ideal)) (v : S100000.Idx) :
    RealSums.IsReal (val_main_v14 (F := Ideal) a1 v) := by
  rw [val_main_v14_apply]
  unfold Scalar.select
  split
  · next hc =>
    rw [val_main_v13_apply, Ideal.hostUnary_rsqrt_def]
    refine RealSums.isReal_rsqrt (isReal_degree a1 v) ?_
    rw [val_main_v12_apply, Ideal.cmpf_def, val_main_v11_apply, val_main_cst_1_apply, Ideal.ofBits_def,
      Ideal.ofBits_zero_f32] at hc
    unfold Ideal.cmp at hc
    by_contra hn
    simp only [hn, decide_false, BitVec.ofBool_false] at hc
    exact absurd hc (by decide)
  · rw [val_main_call0_v1_apply, val_main_call0_v0_apply, val_main_cst_2_apply, Ideal.ofBits_def,
      Ideal.ofBits_zero_f32]
    exact RealSums.isReal_zero

end Cert.ReferenceIdeal.Normaliser

end
-- ==== Proof.RefLayers.lean ====
import proofs.«116216_j23287312679270_2_alg».proof.Proof.RefReadPatched
import proofs.«116216_j23287312679270_2_alg».proof.Proof.LibRowGatherScatter

/-!
# The reference's three layers read at an index

The reference is three graph-convolution layers over one fixed edge list. With the edge array fixed, write `dis v` for the
normaliser of node `v` (the inverse square root of its degree, `0` at degree `0`), `srow e` and `drow e` for the rows the
gathers read for edge `e` (its wrapped source and destination, clamped into the table), `norm e = dis (srow e) * dis (drow e)`
for the edge's weight, and `lands v` for the set of edges whose destination is `v`. Then each layer's value at node `v`,
column `c`, is

  `0 + ∑ e ∈ lands v, (∑ k, h (srow e, k) * w (k, c)) * norm e`, plus the bias at `c`,

where `h` is the layer's input table and `w` its weights, and the first two layers take the positive part of it. The
order of every product and sum is the order in which the program computes it.
-/

noncomputable section

namespace Cert.ReferenceIdeal.Layers

open Cert.ReferenceIdeal Cert.ReferenceIdeal.Gen Cert.ReferenceIdeal.ReadP Idealize.ShloMosaic Idealize.ShloMosaic.ValueIdx
open RowGatherScatter (grow gather_rows_apply gather_entries_apply scatterAdd_rows_apply)

/-! ## The edge list's derived quantities -/

/-- The normaliser of node `v`: the reference's `where (deg > 0) (rsqrt deg) 0` at `v`. -/
def dis (a1 : (⟨S2x3200000, .i32⟩ : BufTy).Contents (Elt Ideal)) (v : Fin 100000) : EReal :=
  val_main_v14 (F := Ideal) a1 (ix1 v)

/-- The row the gathers read for edge `e`: its wrapped source, read signed and clamped into the table. -/
def srow (a1 : (⟨S2x3200000, .i32⟩ : BufTy).Contents (Elt Ideal)) (e : Fin 3300000) : Fin 100000 :=
  grow (N := 100000) (by decide) (val_main_v20 (F := Ideal) a1) e

/-- The row the weight's second factor reads for edge `e`: its wrapped destination, read signed and clamped. -/
def drow (a1 : (⟨S2x3200000, .i32⟩ : BufTy).Contents (Elt Ideal)) (e : Fin 3300000) : Fin 100000 :=
  grow (N := 100000) (by decide) (val_main_v27 (F := Ideal) a1) e

/-- The edges the scatter-adds put on row `v`: those whose destination, read signed, is `v`. -/
def lands (a1 : (⟨S2x3200000, .i32⟩ : BufTy).Contents (Elt Ideal)) (v : Fin 100000) : Finset (Fin 3300000) :=
  Finset.univ.filter (fun e : Fin 3300000 => (val_main_v9 (F := Ideal) a1 (ix2 e (0 : Fin 1))).toInt = (v.val : ℤ))

/-- The weight of edge `e`: the normaliser at its source row times the normaliser at its destination row. -/
def norm (a1 : (⟨S2x3200000, .i32⟩ : BufTy).Contents (Elt Ideal)) (e : Fin 3300000) : EReal :=
  dis a1 (srow a1 e) * dis a1 (drow a1 e)

/-- The later layers wrap the source list again; it is the same index column. -/
theorem v36_eq (a1 : (⟨S2x3200000, .i32⟩ : BufTy).Contents (Elt Ideal)) : val_main_v36 (F := Ideal) a1 = val_main_v20 (F := Ideal) a1 := rfl
/-- The second layer's source column is the first's. -/
theorem v54_eq (a1 : (⟨S2x3200000, .i32⟩ : BufTy).Contents (Elt Ideal)) : val_main_v54 (F := Ideal) a1 = val_main_v20 (F := Ideal) a1 := rfl
/-- The third layer's source column is the first's. -/
theorem v72_eq (a1 : (⟨S2x3200000, .i32⟩ : BufTy).Contents (Elt Ideal)) : val_main_v72 (F := Ideal) a1 = val_main_v20 (F := Ideal) a1 := rfl
/-- The first layer's destination column is the one the degree count reads. -/
theorem v42_eq (a1 : (⟨S2x3200000, .i32⟩ : BufTy).Contents (Elt Ideal)) : val_main_v42 (F := Ideal) a1 = val_main_v9 (F := Ideal) a1 := rfl
/-- The second layer's destination column is the one the degree count reads. -/
theorem v60_eq (a1 : (⟨S2x3200000, .i32⟩ : BufTy).Contents (Elt Ideal)) : val_main_v60 (F := Ideal) a1 = val_main_v9 (F := Ideal) a1 := rfl
/-- The third layer's destination column is the one the degree count reads. -/
theorem v77_eq (a1 : (⟨S2x3200000, .i32⟩ : BufTy).Contents (Elt Ideal)) : val_main_v77 (F := Ideal) a1 = val_main_v9 (F := Ideal) a1 := rfl

/-- The edge's weight, as the program computes it: the normaliser gathered at the source row times the normaliser gathered
    at the destination row. -/
theorem norm_eq (a1 : (⟨S2x3200000, .i32⟩ : BufTy).Contents (Elt Ideal)) (e : Fin 3300000) :
    val_main_v29 (F := Ideal) a1 (ix1 e) = norm a1 e := by
  rw [val_main_v29_apply]
  have h21 : val_main_v21 (F := Ideal) a1 (ix1 e) = dis a1 (srow a1 e) :=
    gather_entries_apply (by decide) gather_S100000_S3300000x1_S3300000_n_0_n_n_0_1_1 rfl rfl rfl rfl rfl rfl rfl
      (val_main_v14 (F := Ideal) a1) (val_main_v20 (F := Ideal) a1) e
  have h28 : val_main_v28 (F := Ideal) a1 (ix1 e) = dis a1 (drow a1 e) :=
    gather_entries_apply (by decide) gather_S100000_S3300000x1_S3300000_n_0_n_n_0_1_1 rfl rfl rfl rfl rfl rfl rfl
      (val_main_v14 (F := Ideal) a1) (val_main_v27 (F := Ideal) a1) e
  rw [h21, h28]
  rfl

/-! ## The first layer -/

/-- The first layer's gathered product at edge `e`, column `c`: the matrix product of the features and the first weights
    at the edge's source row. -/
theorem v37_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (e : Fin 3300000) (c : Fin 64) :
    val_main_v37 (F := Ideal) a0 a1 a2 (ix2 e c) = ∑ k : Fin 5, a0 (ix2 (srow a1 e) k) * a2 (ix2 k c) := by
  refine (gather_rows_apply (by decide) gather_S100000x64_S3300000x1_S3300000x64_1_0_n_n_0_1_164 rfl rfl rfl rfl rfl rfl rfl
    (val_main_v30 (F := Ideal) a0 a2) (val_main_v20 (F := Ideal) a1) e c).trans ?_
  rw [val_main_v30_apply]
  refine Finset.sum_congr rfl fun k _ => ?_
  have el : lidx_main_v30 (ix2 (srow a1 e) c) k = ix2 (srow a1 e) k :=
    funext fun a => Fin.ext (by match a with | ⟨0, _⟩ => rfl | ⟨1, _⟩ => rfl)
  have er : ridx_main_v30 (ix2 (srow a1 e) c) k = ix2 k c :=
    funext fun a => Fin.ext (by match a with | ⟨0, _⟩ => rfl | ⟨1, _⟩ => rfl)
  show a0 (lidx_main_v30 (ix2 (srow a1 e) c) k) * a2 (ridx_main_v30 (ix2 (srow a1 e) c) k) = _
  rw [el, er]

/-- The weights broadcast along the first layer's columns: at edge `e`, any column, the edge's weight. -/
theorem v39_apply (a1 : (⟨S2x3200000, .i32⟩ : BufTy).Contents (Elt Ideal)) (e : Fin 3300000) (c : Fin 64) :
    val_main_v39 (F := Ideal) a1 (ix2 e c) = norm a1 e := by
  rw [val_main_v39_apply, val_main_v38_apply]
  have hi : idx_main_v38 (idx_main_v39 (ix2 e c)) = ix1 e :=
    funext fun a => Fin.ext (by match a with | ⟨0, _⟩ => rfl)
  rw [hi]
  exact norm_eq a1 e

/-- The first layer's message at edge `e`, column `c`: the gathered product times the edge's weight. -/
theorem v40_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (e : Fin 3300000) (c : Fin 64) :
    val_main_v40 (F := Ideal) a0 a1 a2 (ix2 e c)
      = (∑ k : Fin 5, a0 (ix2 (srow a1 e) k) * a2 (ix2 k c)) * norm a1 e := by
  rw [val_main_v40_apply, v37_apply, v39_apply]
  rfl

/-- The first bias broadcast along the rows: at any node, column `c`, the bias at `c`. -/
theorem v45_apply (a3 : (⟨S64, .f32⟩ : BufTy).Contents (Elt Ideal)) (v : Fin 100000) (c : Fin 64) :
    val_main_v45 (F := Ideal) a3 (ix2 v c) = a3 (ix1 c) := by
  rw [val_main_v45_apply, val_main_v44_apply]
  exact congrArg a3 (funext fun a => Fin.ext (by match a with | ⟨0, _⟩ => rfl))

/-- THE FIRST LAYER at node `v`, column `c`: the positive part of the sum, over the edges that land on `v`, of the matrix
    product of the features and the first weights at the edge's source row times the edge's weight, plus the bias at `c`. -/
theorem layer1 (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (v : Fin 100000) (c : Fin 64) :
    val_main_v47 (F := Ideal) a0 a1 a2 a3 (ix2 v c)
      = max ((0 + ∑ e ∈ lands a1 v, (∑ k : Fin 5, a0 (ix2 (srow a1 e) k) * a2 (ix2 k c)) * norm a1 e) + a3 (ix1 c)) 0 := by
  have h43 : val_main_v43 (F := Ideal) a0 a1 a2 (ix2 v c)
      = 0 + ∑ e ∈ lands a1 v, (∑ k : Fin 5, a0 (ix2 (srow a1 e) k) * a2 (ix2 k c)) * norm a1 e := by
    refine (scatterAdd_rows_apply (φ := .f32) scatter_S100000x64_S3300000x1_S3300000x64_1_0_0_1 rfl rfl rfl rfl
      (val_main_v41 (F := Ideal)) (val_main_v9 (F := Ideal) a1) (val_main_v40 (F := Ideal) a0 a1 a2) v c).trans ?_
    have hz : val_main_v41 (F := Ideal) (ix2 v c) = 0 := by
      rw [val_main_v41_apply, val_main_cst_8_apply, Ideal.ofBits_def, Ideal.ofBits_zero_f32]
    rw [hz]
    exact congrArg (0 + ·) (Finset.sum_congr rfl fun e _ => v40_apply a0 a1 a2 e c)
  have hz : val_main_call1_v0 (F := Ideal) (ix2 v c) = 0 := by
    rw [val_main_call1_v0_apply, val_main_call1_cst_apply, Ideal.ofBits_def, Ideal.ofBits_zero_f32]
  rw [val_main_v47_apply, val_main_v46_apply, h43, v45_apply, hz]
  rfl

/-! ## The second layer -/

/-- The second layer's gathered product at edge `e`, column `c`: the matrix product of the first layer's table and the
    second weights at the edge's source row. -/
theorem v55_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (e : Fin 3300000) (c : Fin 64) :
    val_main_v55 (F := Ideal) a0 a1 a2 a3 a4 (ix2 e c)
      = ∑ k : Fin 64, val_main_v47 (F := Ideal) a0 a1 a2 a3 (ix2 (srow a1 e) k) * a4 (ix2 k c) := by
  refine (gather_rows_apply (by decide) gather_S100000x64_S3300000x1_S3300000x64_1_0_n_n_0_1_164 rfl rfl rfl rfl rfl rfl rfl
    (val_main_v48 (F := Ideal) a0 a1 a2 a3 a4) (val_main_v20 (F := Ideal) a1) e c).trans ?_
  rw [val_main_v48_apply]
  refine Finset.sum_congr rfl fun k _ => ?_
  have el : lidx_main_v48 (ix2 (srow a1 e) c) k = ix2 (srow a1 e) k :=
    funext fun a => Fin.ext (by match a with | ⟨0, _⟩ => rfl | ⟨1, _⟩ => rfl)
  have er : ridx_main_v48 (ix2 (srow a1 e) c) k = ix2 k c :=
    funext fun a => Fin.ext (by match a with | ⟨0, _⟩ => rfl | ⟨1, _⟩ => rfl)
  show val_main_v47 (F := Ideal) a0 a1 a2 a3 (lidx_main_v48 (ix2 (srow a1 e) c) k) * a4 (ridx_main_v48 (ix2 (srow a1 e) c) k) = _
  rw [el, er]

/-- The weights broadcast along the second layer's columns: at edge `e`, any column, the edge's weight. -/
theorem v57_apply (a1 : (⟨S2x3200000, .i32⟩ : BufTy).Contents (Elt Ideal)) (e : Fin 3300000) (c : Fin 64) :
    val_main_v57 (F := Ideal) a1 (ix2 e c) = norm a1 e := by
  rw [val_main_v57_apply, val_main_v56_apply]
  have hi : idx_main_v56 (idx_main_v57 (ix2 e c)) = ix1 e :=
    funext fun a => Fin.ext (by match a with | ⟨0, _⟩ => rfl)
  rw [hi]
  exact norm_eq a1 e

/-- The second layer's message at edge `e`, column `c`: the gathered product times the edge's weight. -/
theorem v58_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (e : Fin 3300000) (c : Fin 64) :
    val_main_v58 (F := Ideal) a0 a1 a2 a3 a4 (ix2 e c)
      = (∑ k : Fin 64, val_main_v47 (F := Ideal) a0 a1 a2 a3 (ix2 (srow a1 e) k) * a4 (ix2 k c)) * norm a1 e := by
  rw [val_main_v58_apply, v55_apply, v57_apply]
  rfl

/-- The second bias broadcast along the rows: at any node, column `c`, the bias at `c`. -/
theorem v63_apply (a5 : (⟨S64, .f32⟩ : BufTy).Contents (Elt Ideal)) (v : Fin 100000) (c : Fin 64) :
    val_main_v63 (F := Ideal) a5 (ix2 v c) = a5 (ix1 c) := by
  rw [val_main_v63_apply, val_main_v62_apply]
  exact congrArg a5 (funext fun a => Fin.ext (by match a with | ⟨0, _⟩ => rfl))

/-- THE SECOND LAYER at node `v`, column `c`: the positive part of the sum, over the edges that land on `v`, of the matrix
    product of the first layer's table and the second weights at the edge's source row times the edge's weight, plus the
    bias at `c`. -/
theorem layer2 (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (a5 : (⟨S64, .f32⟩ : BufTy).Contents (Elt Ideal)) (v : Fin 100000) (c : Fin 64) :
    val_main_v65 (F := Ideal) a0 a1 a2 a3 a4 a5 (ix2 v c)
      = max ((0 + ∑ e ∈ lands a1 v,
          (∑ k : Fin 64, val_main_v47 (F := Ideal) a0 a1 a2 a3 (ix2 (srow a1 e) k) * a4 (ix2 k c)) * norm a1 e)
          + a5 (ix1 c)) 0 := by
  have h61 : val_main_v61 (F := Ideal) a0 a1 a2 a3 a4 (ix2 v c)
      = 0 + ∑ e ∈ lands a1 v,
          (∑ k : Fin 64, val_main_v47 (F := Ideal) a0 a1 a2 a3 (ix2 (srow a1 e) k) * a4 (ix2 k c)) * norm a1 e := by
    refine (scatterAdd_rows_apply (φ := .f32) scatter_S100000x64_S3300000x1_S3300000x64_1_0_0_1 rfl rfl rfl rfl
      (val_main_v59 (F := Ideal)) (val_main_v9 (F := Ideal) a1) (val_main_v58 (F := Ideal) a0 a1 a2 a3 a4) v c).trans ?_
    have hz : val_main_v59 (F := Ideal) (ix2 v c) = 0 := by
      rw [val_main_v59_apply, val_main_cst_11_apply, Ideal.ofBits_def, Ideal.ofBits_zero_f32]
    rw [hz]
    exact congrArg (0 + ·) (Finset.sum_congr rfl fun e _ => v58_apply a0 a1 a2 a3 a4 e c)
  have hz : val_main_call2_v0 (F := Ideal) (ix2 v c) = 0 := by
    rw [val_main_call2_v0_apply, val_main_call2_cst_apply, Ideal.ofBits_def, Ideal.ofBits_zero_f32]
  rw [val_main_v65_apply, val_main_v64_apply, h61, v63_apply, hz]
  rfl

/-! ## The third layer -/

/-- The third layer's gathered product at edge `e` (its one column): the matrix product of the second layer's table and
    the third weights at the edge's source row. -/
theorem v73_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (a5 : (⟨S64, .f32⟩ : BufTy).Contents (Elt Ideal)) (a6 : (⟨S64x1, .f32⟩ : BufTy).Contents (Elt Ideal)) (e : Fin 3300000) :
    val_main_v73 (F := Ideal) a0 a1 a2 a3 a4 a5 a6 (ix2 e (0 : Fin 1))
      = ∑ k : Fin 64, val_main_v65 (F := Ideal) a0 a1 a2 a3 a4 a5 (ix2 (srow a1 e) k) * a6 (ix2 k (0 : Fin 1)) := by
  refine (gather_rows_apply (by decide) gather_S100000x1_S3300000x1_S3300000x1_1_0_n_n_0_1_11 rfl rfl rfl rfl rfl rfl rfl
    (val_main_v66 (F := Ideal) a0 a1 a2 a3 a4 a5 a6) (val_main_v20 (F := Ideal) a1) e (0 : Fin 1)).trans ?_
  rw [val_main_v66_apply]
  refine Finset.sum_congr rfl fun k _ => ?_
  have el : lidx_main_v66 (ix2 (srow a1 e) (0 : Fin 1)) k = ix2 (srow a1 e) k :=
    funext fun a => Fin.ext (by match a with | ⟨0, _⟩ => rfl | ⟨1, _⟩ => rfl)
  have er : ridx_main_v66 (ix2 (srow a1 e) (0 : Fin 1)) k = ix2 k (0 : Fin 1) :=
    funext fun a => Fin.ext (by match a with | ⟨0, _⟩ => rfl | ⟨1, _⟩ => rfl)
  show val_main_v65 (F := Ideal) a0 a1 a2 a3 a4 a5 (lidx_main_v66 (ix2 (srow a1 e) (0 : Fin 1)) k)
    * a6 (ridx_main_v66 (ix2 (srow a1 e) (0 : Fin 1)) k) = _
  rw [el, er]

/-- The weights as a column: at edge `e`, the edge's weight. -/
theorem v74_apply (a1 : (⟨S2x3200000, .i32⟩ : BufTy).Contents (Elt Ideal)) (e : Fin 3300000) :
    val_main_v74 (F := Ideal) a1 (ix2 e (0 : Fin 1)) = norm a1 e := by
  rw [val_main_v74_apply]
  have hi : idx_main_v74 (ix2 e (0 : Fin 1)) = ix1 e :=
    funext fun a => Fin.ext (by match a with | ⟨0, _⟩ => rfl)
  rw [hi]
  exact norm_eq a1 e

/-- The third layer's message at edge `e`: the gathered product times the edge's weight. -/
theorem v75_apply (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (a5 : (⟨S64, .f32⟩ : BufTy).Contents (Elt Ideal)) (a6 : (⟨S64x1, .f32⟩ : BufTy).Contents (Elt Ideal)) (e : Fin 3300000) :
    val_main_v75 (F := Ideal) a0 a1 a2 a3 a4 a5 a6 (ix2 e (0 : Fin 1))
      = (∑ k : Fin 64, val_main_v65 (F := Ideal) a0 a1 a2 a3 a4 a5 (ix2 (srow a1 e) k) * a6 (ix2 k (0 : Fin 1)))
          * norm a1 e := by
  rw [val_main_v75_apply, v73_apply, v74_apply]
  rfl

/-- The third bias broadcast along the rows: at any node, the one bias. -/
theorem v80_apply (a7 : (⟨S1, .f32⟩ : BufTy).Contents (Elt Ideal)) (v : Fin 100000) :
    val_main_v80 (F := Ideal) a7 (ix2 v (0 : Fin 1)) = a7 (ix1 (0 : Fin 1)) := by
  rw [val_main_v80_apply, val_main_v79_apply]
  exact congrArg a7 (funext fun a => Fin.ext (by match a with | ⟨0, _⟩ => rfl))

/-- THE THIRD LAYER at node `v` (its one column): the sum, over the edges that land on `v`, of the matrix product of the
    second layer's table and the third weights at the edge's source row times the edge's weight, plus the one bias. -/
theorem layer3 (a0 : (⟨S100000x5, .f32⟩ : BufTy).Contents (Elt Ideal)) (a1 : (⟨S2x3200000, .i32⟩ : BufTy).Contents (Elt Ideal)) (a2 : (⟨S5x64, .f32⟩ : BufTy).Contents (Elt Ideal)) (a3 : (⟨S64, .f32⟩ : BufTy).Contents (Elt Ideal)) (a4 : (⟨S64x64, .f32⟩ : BufTy).Contents (Elt Ideal)) (a5 : (⟨S64, .f32⟩ : BufTy).Contents (Elt Ideal)) (a6 : (⟨S64x1, .f32⟩ : BufTy).Contents (Elt Ideal)) (a7 : (⟨S1, .f32⟩ : BufTy).Contents (Elt Ideal)) (v : Fin 100000) :
    val_main_v81 (F := Ideal) a0 a1 a2 a3 a4 a5 a6 a7 (ix2 v (0 : Fin 1))
      = (0 + ∑ e ∈ lands a1 v,
          (∑ k : Fin 64, val_main_v65 (F := Ideal) a0 a1 a2 a3 a4 a5 (ix2 (srow a1 e) k) * a6 (ix2 k (0 : Fin 1)))
            * norm a1 e)
          + a7 (ix1 (0 : Fin 1)) := by
  have h78 : val_main_v78 (F := Ideal) a0 a1 a2 a3 a4 a5 a6 (ix2 v (0 : Fin 1))
      = 0 + ∑ e ∈ lands a1 v,
          (∑ k : Fin 64, val_main_v65 (F := Ideal) a0 a1 a2 a3 a4 a5 (ix2 (srow a1 e) k) * a6 (ix2 k (0 : Fin 1)))
            * norm a1 e := by
    refine (scatterAdd_rows_apply (φ := .f32) scatter_S100000x1_S3300000x1_S3300000x1_1_0_0_1 rfl rfl rfl rfl
      (val_main_v76 (F := Ideal)) (val_main_v9 (F := Ideal) a1) (val_main_v75 (F := Ideal) a0 a1 a2 a3 a4 a5 a6) v
      (0 : Fin 1)).trans ?_
    have hz : val_main_v76 (F := Ideal) (ix2 v (0 : Fin 1)) = 0 := by
      rw [val_main_v76_apply, val_main_cst_14_apply, Ideal.ofBits_def, Ideal.ofBits_zero_f32]
    rw [hz]
    exact congrArg (0 + ·) (Finset.sum_congr rfl fun e _ => v75_apply a0 a1 a2 a3 a4 a5 a6 e)
  rw [val_main_v81_apply, h78, v80_apply]
  rfl

end Cert.ReferenceIdeal.Layers

end
-- ==== Proof.Bridge.lean ====
import proofs.«116216_j23287312679270_2_alg».proof.Proof.KernelShapes
import proofs.«116216_j23287312679270_2_alg».proof.Proof.RefLayers
import proofs.«116216_j23287312679270_2_alg».proof.Proof.LibRowGatherScatter
import proofs.«116216_j23287312679270_2_alg».proof.Proof.LibRealSums
import Idealize.ShloMosaic.Lib.ValueLayout

/-!
# The kernel's function of the arguments is the reference's result

Both programs are three graph-convolution layers over one edge list. The reference weighs every edge's message by
`norm e = dis (src e) * dis (dst e)` before summing the messages that land on a node; the kernel multiplies by the
source's normaliser before the sum and by the destination's after it, and in the first layer it sums the raw input
channels before applying the weight matrix instead of after. When every float entry is a real number the two agree, by
distributivity and the exchange of two finite sums. This file reads the kernel's stages at an index over the same
`dis`, `srow`, `lands` as the reference's layers, and then proves the three layers equal one by one.
-/

set_option maxRecDepth 16384

noncomputable section

namespace Cert.Bridge

open Cert.KernelIdeal Cert.KernelIdeal.Gen Cert.KernelIdeal.Arrays Cert.KernelIdeal.Stages
open Cert.ReferenceIdeal.ReadP Cert.ReferenceIdeal.Layers
open Idealize.ShloMosaic Idealize.ShloMosaic.ValueIdx
open RowGatherScatter (grow gather_rows_apply scatterAdd_rows_apply)
open RealSums
open scoped BigOperators

/-! ## The host stretches' layout operations read at an index -/

/-- A per-node vector as a column reads, at row `v`, the vector at `v`. -/
theorem colOf_apply (d : FVec Ideal S100000 .f32) (v : Fin 100000) (z : Fin 1) : colOf d (ix2 v z) = d (ix1 v) := by
  unfold colOf
  exact broadcastInDim_apply _ bcast_S100000_S100000x1_0 d (ix2 v z) (ix1 v) (fun a => match a with
    | ⟨0, _⟩ => by show v.val = if (100000 : Nat) = 1 then 0 else v.val; rw [if_neg (by decide)])

/-- A column spread over the five channels reads, at `(v, f)`, the column at row `v`. -/
theorem wideOf_apply (dc : FVec Ideal S100000x1 .f32) (v : Fin 100000) (f : Fin 5) :
    wideOf dc (ix2 v f) = dc (ix2 v (0 : Fin 1)) := by
  unfold wideOf
  exact broadcastInDim_apply _ bcast_S100000x1_S100000x5_0_1 dc (ix2 v f) (ix2 v (0 : Fin 1)) (fun a => match a with
    | ⟨0, _⟩ => by show v.val = if (100000 : Nat) = 1 then 0 else v.val; rw [if_neg (by decide)]
    | ⟨1, _⟩ => by show 0 = if (1 : Nat) = 1 then 0 else f.val; rw [if_pos rfl])

/-- A bias vector as a one-row matrix reads, at column `c`, the vector at `c`. -/
theorem rowOf_apply (b : FVec Ideal S64 .f32) (u : Fin 1) (c : Fin 64) : rowOf b (ix2 u c) = b (ix1 c) := by
  unfold rowOf
  exact shapeCast_a_1a_apply b shapeCasts_S64_S1x64 u c

/-- A zero scalar broadcast to any shape reads zero everywhere. -/
theorem zeros_apply {t : Shape} (h : S_.BroadcastsInDim t (![] : Fin 0 → Fin t.rank)) (i : t.Idx) :
    broadcastInDim t ![] h (constant (F := Ideal) S_ .f32 0x00000000#32) i = 0 :=
  (broadcastInDim_apply _ h _ i (fun a => a.elim0) (fun a => a.elim0)).trans Ideal.ofBits_zero_f32

/-! ## Rows gathered at the sources and summed at the destinations -/

/-- A table's rows gathered at the sources and added into the rows the destinations name, over a zero table: at node
    `v`, column `c`, the sum over the edges that land on `v` of the table at the edge's source row. -/
theorem gather_scatter_apply {C : Nat}
    (ds : ScatterDims (⟨2, ![100000, C]⟩ : Shape) (⟨2, ![3300000, 1]⟩ : Shape) (⟨2, ![3300000, C]⟩ : Shape))
    (hs1 : ds.updateWindowDims = [1]) (hs2 : ds.insertedWindowDims = [0]) (hs3 : ds.scatterDimsToOperandDims = [0])
    (hs4 : ds.indexVectorDim = 1)
    (dg : GatherDims (⟨2, ![100000, C]⟩ : Shape) (⟨2, ![3300000, 1]⟩ : Shape) (⟨2, ![3300000, C]⟩ : Shape))
    (hg1 : dg.offsetDims = [1]) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1, C])
    (z : FVec Ideal (⟨2, ![100000, C]⟩ : Shape) .f32) (hz : ∀ i, z i = 0)
    (x : FVec Ideal (⟨2, ![100000, C]⟩ : Shape) .f32) (a1 : IVec S2x3200000 32) (v : Fin 100000) (c : Fin C) :
    Host.scatterAdd (F := Ideal) ds z (asCol (val_main_v6 (F := Ideal) a1))
        (Host.gather dg x (wrapped (val_main_v3 (F := Ideal) a1))) (ix2 v c)
      = 0 + ∑ e ∈ lands a1 v, x (ix2 (srow a1 e) c) := by
  refine (scatterAdd_rows_apply (φ := .f32) ds hs1 hs2 hs3 hs4 z (asCol (val_main_v6 (F := Ideal) a1))
    (Host.gather dg x (wrapped (val_main_v3 (F := Ideal) a1))) v c).trans ?_
  rw [hz]
  refine congrArg (0 + ·) (Finset.sum_congr rfl fun e _ => ?_)
  exact gather_rows_apply (by decide) dg hg1 hg2 hg3 hg4 hg5 hg6 hg7 x (wrapped (val_main_v3 (F := Ideal) a1)) e c

/-- The last bias, broadcast twice, reads the one bias at every node. -/
theorem bias_apply (a7 : FVec Ideal S1 .f32) (v : Fin 100000) (z : Fin 1) :
    broadcastInDim S100000x1 ![0, 1] bcast_S1x1_S100000x1_0_1 (broadcastInDim S1x1 ![1] bcast_S1_S1x1_1 a7) (ix2 v z)
      = a7 (ix1 (0 : Fin 1)) :=
  (broadcastInDim_apply _ bcast_S1x1_S100000x1_0_1 _ (ix2 v z) (ix2 (0 : Fin 1) (0 : Fin 1)) (fun a => match a with
    | ⟨0, _⟩ => by show 0 = if (1 : Nat) = 1 then 0 else v.val; rw [if_pos rfl]
    | ⟨1, _⟩ => by show 0 = if (1 : Nat) = 1 then 0 else z.val; rw [if_pos rfl])).trans
  (broadcastInDim_apply _ bcast_S1_S1x1_1 a7 (ix2 (0 : Fin 1) (0 : Fin 1)) (ix1 (0 : Fin 1)) (fun a => match a with
    | ⟨0, _⟩ => by show 0 = if (1 : Nat) = 1 then 0 else 0; rw [if_pos rfl]))

/-! ## Pointwise operations and the regions' row functions at an index -/

/-- A product of two tables is entrywise. -/
theorem mulf_at {s : Shape} (x y : FVec Ideal s .f32) (i : s.Idx) : mulf (F := Ideal) x y i = x i * y i := rfl

/-- A sum of two tables is entrywise. -/
theorem addf_at {s : Shape} (x y : FVec Ideal s .f32) (i : s.Idx) : addf (F := Ideal) x y i = x i + y i := rfl

/-- The first region's row function at `(v, c)`. -/
theorem rowsA_at (a : S100000x5.Idx → EReal) (w : S5x64.Idx → EReal) (b : S1x64.Idx → EReal) (v : Fin 100000) (c : Fin 64) :
    rowsA a w b (ix2 v c) = max ((∑ k : Fin 5, a (ix2 v k) * w (ix2 k c)) + b (ix2 (0 : Fin 1) c)) 0 := rfl

/-- The second region's row function at `(u, c)`. -/
theorem rowsB_at (h : S100000x64.Idx → EReal) (w : S64x64.Idx → EReal) (d : S100000x1.Idx → EReal) (u : Fin 100000) (c : Fin 64) :
    rowsB h w d (ix2 u c) = (∑ k : Fin 64, h (ix2 u k) * w (ix2 k c)) * d (ix2 u (0 : Fin 1)) := rfl

/-- The third region's row function at `(u, 0)`. -/
theorem rowsC_at (g : S100000x64.Idx → EReal) (d : S100000x1.Idx → EReal) (b : S1x64.Idx → EReal) (w : S64x1.Idx → EReal) (u : Fin 100000) :
    rowsC g d b w (ix2 u (0 : Fin 1))
      = (∑ k : Fin 64, max (g (ix2 u k) * d (ix2 u (0 : Fin 1)) + b (ix2 (0 : Fin 1) k)) 0 * w (ix2 k (0 : Fin 1))) * d (ix2 u (0 : Fin 1)) := rfl

/-! ## The kernel's stages read at an index, over the reference's `dis`, `srow`, `lands` -/

/-- The normaliser column spread over the channels reads the normaliser of the row. -/
theorem wide_dis (a1 : IVec S2x3200000 32) (u : Fin 100000) (g : Fin 5) :
    wideOf (colOf (val_main_v14 (F := Ideal) a1)) (ix2 u g) = dis a1 u :=
  (wideOf_apply _ u g).trans (colOf_apply _ u 0)

/-- The normaliser column reads the normaliser of the row. -/
theorem col_dis (a1 : IVec S2x3200000 32) (u : Fin 100000) (z : Fin 1) :
    colOf (val_main_v14 (F := Ideal) a1) (ix2 u z) = dis a1 u :=
  colOf_apply _ u z

/-- The first region's input at node `v`, channel `f`: the source-scaled features summed over the edges that land on
    `v`, scaled by `v`'s normaliser. -/
theorem aggOf_apply (a0 : FVec Ideal S100000x5 .f32) (a1 : IVec S2x3200000 32) (v : Fin 100000) (f : Fin 5) :
    aggOf a0 (val_main_v14 (F := Ideal) a1) (val_main_v3 (F := Ideal) a1) (val_main_v6 (F := Ideal) a1) (ix2 v f)
      = (0 + ∑ e ∈ lands a1 v, a0 (ix2 (srow a1 e) f) * dis a1 (srow a1 e)) * dis a1 v := by
  have hS := gather_scatter_apply scatter_S100000x5_S3300000x1_S3300000x5_1_0_0_1 rfl rfl rfl rfl
    gather_S100000x5_S3300000x1_S3300000x5_1_0_n_n_0_1_15 rfl rfl rfl rfl rfl rfl rfl
    (broadcastInDim S100000x5 ![] bcast_S_S100000x5 (constant (F := Ideal) S_ .f32 0x00000000#32))
    (zeros_apply bcast_S_S100000x5)
    (mulf (F := Ideal) a0 (wideOf (colOf (val_main_v14 (F := Ideal) a1)))) a1 v f
  unfold aggOf
  refine (mulf_at _ _ _).trans ?_
  refine (congrArg₂ (· * ·) hS (wide_dis a1 v f)).trans ?_
  refine congrArg (· * dis a1 v) (congrArg (0 + ·) (Finset.sum_congr rfl fun e _ => ?_))
  refine (mulf_at _ _ _).trans ?_
  exact congrArg (a0 (ix2 (srow a1 e) f) * ·) (wide_dis a1 (srow a1 e) f)

/-- The first layer's activations at node `v`, column `c`. -/
theorem hidden1_apply (a0 : FVec Ideal S100000x5 .f32) (a1 : IVec S2x3200000 32) (a2 : FVec Ideal S5x64 .f32) (a3 : FVec Ideal S64 .f32) (v : Fin 100000) (c : Fin 64) :
    hidden1 a0 a1 a2 a3 (ix2 v c)
      = max ((∑ k : Fin 5, aggOf a0 (val_main_v14 (F := Ideal) a1) (val_main_v3 (F := Ideal) a1) (val_main_v6 (F := Ideal) a1) (ix2 v k) * a2 (ix2 k c)) + a3 (ix1 c)) 0 := by
  unfold hidden1
  refine (rowsA_at _ _ _ v c).trans ?_
  rw [rowOf_apply]

/-- The second layer before aggregation at node `u`, column `c`. -/
theorem pre2_apply (a0 : FVec Ideal S100000x5 .f32) (a1 : IVec S2x3200000 32) (a2 : FVec Ideal S5x64 .f32) (a3 : FVec Ideal S64 .f32) (a4 : FVec Ideal S64x64 .f32) (u : Fin 100000) (c : Fin 64) :
    pre2 a0 a1 a2 a3 a4 (ix2 u c) = (∑ k : Fin 64, hidden1 a0 a1 a2 a3 (ix2 u k) * a4 (ix2 k c)) * dis a1 u := by
  unfold pre2
  refine (rowsB_at _ _ _ u c).trans ?_
  rw [col_dis a1 u 0]

/-- The third region's input at node `v`, column `c`: the table summed over the edges that land on `v`. -/
theorem agg64Of_apply (p : FVec Ideal S100000x64 .f32) (a1 : IVec S2x3200000 32) (v : Fin 100000) (c : Fin 64) :
    agg64Of p (val_main_v3 (F := Ideal) a1) (val_main_v6 (F := Ideal) a1) (ix2 v c) = 0 + ∑ e ∈ lands a1 v, p (ix2 (srow a1 e) c) := by
  unfold agg64Of
  exact gather_scatter_apply scatter_S100000x64_S3300000x1_S3300000x64_1_0_0_1 rfl rfl rfl rfl
    gather_S100000x64_S3300000x1_S3300000x64_1_0_n_n_0_1_164 rfl rfl rfl rfl rfl rfl rfl
    (broadcastInDim S100000x64 ![] bcast_S_S100000x64 (constant (F := Ideal) S_ .f32 0x00000000#32))
    (zeros_apply bcast_S_S100000x64) p a1 v c

/-- The third layer before aggregation at node `u`. -/
theorem pre3_apply (a0 : FVec Ideal S100000x5 .f32) (a1 : IVec S2x3200000 32) (a2 : FVec Ideal S5x64 .f32) (a3 : FVec Ideal S64 .f32) (a4 : FVec Ideal S64x64 .f32) (a5 : FVec Ideal S64 .f32) (a6 : FVec Ideal S64x1 .f32) (u : Fin 100000) :
    pre3 a0 a1 a2 a3 a4 a5 a6 (ix2 u (0 : Fin 1))
      = (∑ k : Fin 64, max (agg64Of (pre2 a0 a1 a2 a3 a4) (val_main_v3 (F := Ideal) a1) (val_main_v6 (F := Ideal) a1) (ix2 u k) * dis a1 u + a5 (ix1 k)) 0
          * a6 (ix2 k (0 : Fin 1))) * dis a1 u := by
  unfold pre3
  refine (rowsC_at _ _ _ _ u).trans ?_
  rw [col_dis a1 u 0]
  refine congrArg (· * dis a1 u) (Finset.sum_congr rfl fun k _ => ?_)
  rw [rowOf_apply]

/-- The kernel's result at node `v`. -/
theorem kernelOf_apply (a0 : FVec Ideal S100000x5 .f32) (a1 : IVec S2x3200000 32) (a2 : FVec Ideal S5x64 .f32) (a3 : FVec Ideal S64 .f32) (a4 : FVec Ideal S64x64 .f32) (a5 : FVec Ideal S64 .f32) (a6 : FVec Ideal S64x1 .f32) (a7 : FVec Ideal S1 .f32) (v : Fin 100000) :
    kernelOf a0 a1 a2 a3 a4 a5 a6 a7 (ix2 v (0 : Fin 1))
      = (0 + ∑ e ∈ lands a1 v, pre3 a0 a1 a2 a3 a4 a5 a6 (ix2 (srow a1 e) (0 : Fin 1))) * dis a1 v + a7 (ix1 (0 : Fin 1)) := by
  have hS := gather_scatter_apply scatter_S100000x1_S3300000x1_S3300000x1_1_0_0_1 rfl rfl rfl rfl
    gather_S100000x1_S3300000x1_S3300000x1_1_0_n_n_0_1_11 rfl rfl rfl rfl rfl rfl rfl
    (broadcastInDim S100000x1 ![] bcast_S_S100000x1 (constant (F := Ideal) S_ .f32 0x00000000#32))
    (zeros_apply bcast_S_S100000x1)
    (pre3 a0 a1 a2 a3 a4 a5 a6) a1 v (0 : Fin 1)
  unfold kernelOf outOf
  refine (addf_at _ _ _).trans ?_
  exact congrArg₂ (· + ·) ((mulf_at _ _ _).trans (congrArg₂ (· * ·) hS (col_dis a1 v 0))) (bias_apply a7 v 0)

/-! ## The three layers agree -/

/-- On the edges that land on `v` the edge's weight is the source's normaliser times `v`'s. -/
theorem norm_of_lands (a1 : IVec S2x3200000 32) (hland : ∀ v e, e ∈ lands a1 v → drow a1 e = v) (v : Fin 100000) (e : Fin 3300000) (he : e ∈ lands a1 v) :
    dis a1 (srow a1 e) * dis a1 v = norm a1 e := by
  unfold Cert.ReferenceIdeal.Layers.norm
  rw [hland v e he]

/-- THE FIRST LAYER: the kernel's activations are the reference's. The kernel sums the scaled input channels over the
    edges first and applies the weight matrix after; over the reals the two orders agree. -/
theorem hidden1_eq (a0 : FVec Ideal S100000x5 .f32) (a1 : IVec S2x3200000 32) (a2 : FVec Ideal S5x64 .f32) (a3 : FVec Ideal S64 .f32) (h0 : ∀ i, IsReal (a0 i)) (h2 : ∀ i, IsReal (a2 i)) (hdis : ∀ v, IsReal (dis a1 v)) (hland : ∀ v e, e ∈ lands a1 v → drow a1 e = v) (v : Fin 100000) (c : Fin 64) :
    hidden1 a0 a1 a2 a3 (ix2 v c) = val_main_v47 (F := Ideal) a0 a1 a2 a3 (ix2 v c) := by
  rw [hidden1_apply, layer1]
  refine congrArg (fun t => max (t + a3 (ix1 c)) 0) ?_
  rw [zero_add]
  have h := sum_proj_of_sum_scaled (lands a1 v) (fun e f => a0 (ix2 (srow a1 e) f)) (fun e => dis a1 (srow a1 e)) (dis a1 v)
    (fun f => a2 (ix2 f c)) (fun e _ f => h0 _) (fun e _ => hdis _) (hdis v) (fun f => h2 _)
  refine (Finset.sum_congr rfl fun k _ => ?_).trans (h.trans (Finset.sum_congr rfl fun e he => ?_))
  · rw [aggOf_apply, zero_add]
  · rw [norm_of_lands a1 hland v e he]

/-- Every entry of the reference's first layer is a real number. -/
theorem real_v47 (a0 : FVec Ideal S100000x5 .f32) (a1 : IVec S2x3200000 32) (a2 : FVec Ideal S5x64 .f32) (a3 : FVec Ideal S64 .f32) (h0 : ∀ i, IsReal (a0 i)) (h2 : ∀ i, IsReal (a2 i)) (h3 : ∀ i, IsReal (a3 i)) (hdis : ∀ v, IsReal (dis a1 v)) (v : Fin 100000) (c : Fin 64) :
    IsReal (val_main_v47 (F := Ideal) a0 a1 a2 a3 (ix2 v c)) := by
  rw [layer1]
  exact isReal_max (isReal_add (isReal_add isReal_zero (isReal_sum _ _ fun e _ =>
    isReal_mul (isReal_sum_univ _ fun k => isReal_mul (h0 _) (h2 _)) (isReal_mul (hdis _) (hdis _)))) (h3 _)) isReal_zero

/-- THE SECOND LAYER: the kernel's rectified, rescaled aggregate is the reference's second layer. The kernel scales by
    the destination's normaliser after the sum over the edges, the reference inside it. -/
theorem layer2_eq (a0 : FVec Ideal S100000x5 .f32) (a1 : IVec S2x3200000 32) (a2 : FVec Ideal S5x64 .f32) (a3 : FVec Ideal S64 .f32) (a4 : FVec Ideal S64x64 .f32) (a5 : FVec Ideal S64 .f32) (h0 : ∀ i, IsReal (a0 i)) (h2 : ∀ i, IsReal (a2 i)) (h3 : ∀ i, IsReal (a3 i)) (h4 : ∀ i, IsReal (a4 i)) (hdis : ∀ v, IsReal (dis a1 v)) (hland : ∀ v e, e ∈ lands a1 v → drow a1 e = v) (u : Fin 100000) (k : Fin 64) :
    max (agg64Of (pre2 a0 a1 a2 a3 a4) (val_main_v3 (F := Ideal) a1) (val_main_v6 (F := Ideal) a1) (ix2 u k) * dis a1 u + a5 (ix1 k)) 0 = val_main_v65 (F := Ideal) a0 a1 a2 a3 a4 a5 (ix2 u k) := by
  rw [layer2]
  refine congrArg (fun t => max (t + a5 (ix1 k)) 0) ?_
  rw [agg64Of_apply, zero_add, zero_add]
  have h := sum_mul_mul_right (lands a1 u)
    (fun e => ∑ k' : Fin 64, val_main_v47 (F := Ideal) a0 a1 a2 a3 (ix2 (srow a1 e) k') * a4 (ix2 k' k)) (fun e => dis a1 (srow a1 e)) (dis a1 u)
    (fun e _ => isReal_sum_univ _ fun k' => isReal_mul (real_v47 a0 a1 a2 a3 h0 h2 h3 hdis _ _) (h4 _)) (fun e _ => hdis _) (hdis u)
  refine (congrArg (· * dis a1 u) (Finset.sum_congr rfl fun e _ => ?_)).trans
    (h.trans (Finset.sum_congr rfl fun e he => ?_))
  · rw [pre2_apply]
    refine congrArg (· * dis a1 (srow a1 e)) (Finset.sum_congr rfl fun k' _ => ?_)
    rw [hidden1_eq a0 a1 a2 a3 h0 h2 hdis hland]
  · rw [norm_of_lands a1 hland u e he]

/-- Every entry of the reference's second layer is a real number. -/
theorem real_v65 (a0 : FVec Ideal S100000x5 .f32) (a1 : IVec S2x3200000 32) (a2 : FVec Ideal S5x64 .f32) (a3 : FVec Ideal S64 .f32) (a4 : FVec Ideal S64x64 .f32) (a5 : FVec Ideal S64 .f32) (h0 : ∀ i, IsReal (a0 i)) (h2 : ∀ i, IsReal (a2 i)) (h3 : ∀ i, IsReal (a3 i)) (h4 : ∀ i, IsReal (a4 i)) (h5 : ∀ i, IsReal (a5 i)) (hdis : ∀ v, IsReal (dis a1 v)) (v : Fin 100000) (c : Fin 64) :
    IsReal (val_main_v65 (F := Ideal) a0 a1 a2 a3 a4 a5 (ix2 v c)) := by
  rw [layer2]
  exact isReal_max (isReal_add (isReal_add isReal_zero (isReal_sum _ _ fun e _ =>
    isReal_mul (isReal_sum_univ _ fun k => isReal_mul (real_v47 a0 a1 a2 a3 h0 h2 h3 hdis _ _) (h4 _))
      (isReal_mul (hdis _) (hdis _)))) (h5 _)) isReal_zero

/-- THE THIRD LAYER: the kernel's result at node `v` is the reference's. -/
theorem kernelOf_eq (a0 : FVec Ideal S100000x5 .f32) (a1 : IVec S2x3200000 32) (a2 : FVec Ideal S5x64 .f32) (a3 : FVec Ideal S64 .f32) (a4 : FVec Ideal S64x64 .f32) (a5 : FVec Ideal S64 .f32) (a6 : FVec Ideal S64x1 .f32) (a7 : FVec Ideal S1 .f32) (h0 : ∀ i, IsReal (a0 i)) (h2 : ∀ i, IsReal (a2 i)) (h3 : ∀ i, IsReal (a3 i)) (h4 : ∀ i, IsReal (a4 i)) (h5 : ∀ i, IsReal (a5 i)) (h6 : ∀ i, IsReal (a6 i)) (hdis : ∀ v, IsReal (dis a1 v)) (hland : ∀ v e, e ∈ lands a1 v → drow a1 e = v) (v : Fin 100000) :
    kernelOf a0 a1 a2 a3 a4 a5 a6 a7 (ix2 v (0 : Fin 1)) = val_main_v81 (F := Ideal) a0 a1 a2 a3 a4 a5 a6 a7 (ix2 v (0 : Fin 1)) := by
  rw [kernelOf_apply, layer3]
  refine congrArg (· + a7 (ix1 (0 : Fin 1))) ?_
  rw [zero_add, zero_add]
  have h := sum_mul_mul_right (lands a1 v)
    (fun e => ∑ k : Fin 64, val_main_v65 (F := Ideal) a0 a1 a2 a3 a4 a5 (ix2 (srow a1 e) k) * a6 (ix2 k (0 : Fin 1))) (fun e => dis a1 (srow a1 e)) (dis a1 v)
    (fun e _ => isReal_sum_univ _ fun k => isReal_mul (real_v65 a0 a1 a2 a3 a4 a5 h0 h2 h3 h4 h5 hdis _ _) (h6 _)) (fun e _ => hdis _) (hdis v)
  refine (congrArg (· * dis a1 v) (Finset.sum_congr rfl fun e _ => ?_)).trans
    (h.trans (Finset.sum_congr rfl fun e he => ?_))
  · rw [pre3_apply]
    refine congrArg (· * dis a1 (srow a1 e)) (Finset.sum_congr rfl fun k _ => ?_)
    rw [layer2_eq a0 a1 a2 a3 a4 a5 h0 h2 h3 h4 hdis hland]
  · rw [norm_of_lands a1 hland v e he]

/-- THE BRIDGE: when every float entry of the arguments and every normaliser is a real number, and every edge that lands
    on a node has that node as its destination row, the kernel's function of the arguments is the reference's result. -/
theorem bridge (a0 : FVec Ideal S100000x5 .f32) (a1 : IVec S2x3200000 32) (a2 : FVec Ideal S5x64 .f32) (a3 : FVec Ideal S64 .f32) (a4 : FVec Ideal S64x64 .f32) (a5 : FVec Ideal S64 .f32) (a6 : FVec Ideal S64x1 .f32) (a7 : FVec Ideal S1 .f32)
    (h0 : ∀ i, IsReal (a0 i)) (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i))
    (hdis : ∀ v, RealSums.IsReal (Cert.ReferenceIdeal.Layers.dis a1 v))
    (hland : ∀ v e, e ∈ Cert.ReferenceIdeal.Layers.lands a1 v → Cert.ReferenceIdeal.Layers.drow a1 e = v) :
    Cert.KernelIdeal.Stages.kernelOf a0 a1 a2 a3 a4 a5 a6 a7
      = Cert.ReferenceIdeal.ReadP.val_main_v81 (F := Ideal) a0 a1 a2 a3 a4 a5 a6 a7 := by
  funext i
  obtain ⟨v, z, rfl⟩ : ∃ (v : Fin 100000) (z : Fin 1), i = ix2 v z := ⟨i 0, i 1, eq_ix2 i⟩
  obtain rfl : z = 0 := Subsingleton.elim _ _
  exact kernelOf_eq a0 a1 a2 a3 a4 a5 a6 a7 h0 h2 h3 h4 h5 h6 hdis hland v

end Cert.Bridge

end
-- ==== Proof.lean ====
/-
  The certificate of a three-layer graph convolution over a fixed graph of 100000 nodes and 3200000 edges (plus one
  self-loop per node): a Pallas kernel pipeline against its plain reference, equal as functions of the extended reals.

  Both programs build from the edge array the source list `src`, the destination list `dst`, the degree
  `deg v = #{e : dst e = v}` and the normaliser `dis v = deg v ^ (-1/2)` (zero where the degree is not positive). A layer
  of the REFERENCE is `out (v, c) = (∑ over the edges e landing on v of (∑_k h (src e, k) · W (k, c)) · (dis (src e) · dis (dst e))) + b c`,
  rectified after the first two layers. The KERNEL scales by `dis (src e)` before the sum over the edges and by
  `dis v` after it, and in the first layer it sums the five raw input channels over the edges BEFORE applying the
  5 → 64 weight matrix. Where an edge lands on row `v` its destination IS `v`, so the two differ by distributing a
  factor over a finite sum and by exchanging two finite sums: laws of the reals that fail at infinities, which is where
  the precondition (every float input is finite) is used — the degree is a count, its reciprocal square root at a
  positive count is a real, and every later entry is a finite combination of reals.

  The kernel's value is read off its run stage by stage (three pipelined regions among five stretches of host
  operations), the reference's off its run one operation at a time; the idealization rewrote nothing, so the
  preservation claim is empty.
-/
import proofs.«116216_j23287312679270_2_alg».proof.Defs
import proofs.«116216_j23287312679270_2_alg».proof.Proof.Gen.Kernel
import proofs.«116216_j23287312679270_2_alg».proof.Proof.Gen.Kernel.Skeleton
import proofs.«116216_j23287312679270_2_alg».proof.Proof.Gen.Kernel.Launch
import proofs.«116216_j23287312679270_2_alg».proof.Proof.Gen.Kernel.Points
import proofs.«116216_j23287312679270_2_alg».proof.Proof.Gen.Kernel.Frame
import proofs.«116216_j23287312679270_2_alg».proof.Proof.Gen.KernelIdeal
import proofs.«116216_j23287312679270_2_alg».proof.Proof.Gen.KernelIdeal.Skeleton
import proofs.«116216_j23287312679270_2_alg».proof.Proof.Gen.KernelIdeal.Launch
import proofs.«116216_j23287312679270_2_alg».proof.Proof.Gen.KernelIdeal.Points
import proofs.«116216_j23287312679270_2_alg».proof.Proof.Gen.KernelIdeal.Frame
import proofs.«116216_j23287312679270_2_alg».proof.Proof.Gen.ReferenceIdeal
import proofs.«116216_j23287312679270_2_alg».proof.Proof.Gen.Pre_finite_inputs
import proofs.«116216_j23287312679270_2_alg».proof.Proof.RefRunPatched
import proofs.«116216_j23287312679270_2_alg».proof.Proof.RefReadPatched
import proofs.«116216_j23287312679270_2_alg».proof.Proof.KernelRun
import proofs.«116216_j23287312679270_2_alg».proof.Proof.KernelStages
import proofs.«116216_j23287312679270_2_alg».proof.Proof.FiniteInputs
import proofs.«116216_j23287312679270_2_alg».proof.Proof.NormaliserFacts
import proofs.«116216_j23287312679270_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result array: the kernel's run
    ends at `kernelOf` of the arguments, the reference's at its last stage, and the two are one function of real-valued
    arguments (the bridge), the realness from the precondition. -/
theorem algebraic : Cert.algebraic_KernelIdeal_ReferenceIdeal := by
  intro m ρ m' ρ' hpre hagree
  refine ⟨fun c => Cert.KernelIdeal.Stages.kernelOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v81_eq m' c, (hagree c).1, (hagree c).2.1, (hagree c).2.2.1, (hagree c).2.2.2.1, (hagree c).2.2.2.2.1, (hagree c).2.2.2.2.2.1, (hagree c).2.2.2.2.2.2.1, (hagree c).2.2.2.2.2.2.2]
    obtain ⟨r0, r2, r3, r4, r5, r6, r7⟩ := Cert.KernelIdeal.Finite.finite_inputs _ _ _ _ _ _ _ _ (hpre c)
    exact (Cert.Bridge.bridge _ _ _ _ _ _ _ _ r0 r2 r3 r4 r5 r6 r7
      (fun v => Cert.ReferenceIdeal.Normaliser.isReal_normaliser _ _)
      (fun v e he => Cert.ReferenceIdeal.Normaliser.grow_dest _ e v (Finset.mem_filter.mp he).2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
